-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x2048x256 .f32) (main_arg1 : FVec F S256x256 .f32) (main_arg2 : FVec F S256 .f32) (main_arg3 : FVec F S256x256 .f32) (main_arg4 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S8x2048x256 : Shape := ⟨3, ![8, 2048, 256]⟩
abbrev S256x256 : Shape := ⟨2, ![256, 256]⟩
abbrev S256 : Shape := ⟨1, ![256]⟩
abbrev S8x2048x2048 : Shape := ⟨3, ![8, 2048, 2048]⟩
abbrev S1x2048x256 : Shape := ⟨3, ![1, 2048, 256]⟩
abbrev S1x512x512 : Shape := ⟨3, ![1, 512, 512]⟩
abbrev S2048x256 : Shape := ⟨2, ![2048, 256]⟩
abbrev S1x256 : Shape := ⟨2, ![1, 256]⟩
abbrev S512x256 : Shape := ⟨2, ![512, 256]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S8x2048x2048, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1x512x512, .f32⟩
  | .local _ .vmem, ⟨7, _⟩ => ⟨S1x512x512, .f32⟩
  | .local _ .vmem, ⟨8, _⟩ => ⟨S2048x256, .bf16⟩
  | .local _ .vmem, ⟨9, _⟩ => ⟨S2048x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  v5
def k0_mult2 (i : grid0.Coords) : BitVec 32 :=
  let arg2 : BitVec 32 := BitVec.ofNat 32 (i 2).val
  let c512_i32_2 : BitVec 32 := 512#32
  let v7 : BitVec 32 := Scalar.muli arg2 c512_i32_2
  v7
def k0_off1 (i : grid0.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v9 : Index := Scalar.indexCast v6
  let c0 : Index := 0#32
  ![v9.toNat, 0]
def k0_cond3 (i : grid0.Coords) : BitVec 1 :=
  let arg1 : BitVec 32 := BitVec.ofNat 32 (i 1).val
  let arg2 : BitVec 32 := BitVec.ofNat 32 (i 2).val
  let v16 : BitVec 1 := Scalar.cmpi .ne arg1 arg2
  let v17 : BitVec 32 := Scalar.extui v16
  let c0_i32_5 : BitVec 32 := 0#32
  let v18 : BitVec 1 := Scalar.cmpi .ne v17 c0_i32_5
  v18

def k0_off2 (i : grid0.Coords) : Fin 2 → Nat :=
  let arg2 : BitVec 32 := BitVec.ofNat 32 (i 2).val
  let c512_i32_2 : BitVec 32 := 512#32
  let v7 : BitVec 32 := Scalar.muli arg2 c512_i32_2
  let v8 : BitVec 32 := v7
  let v19 : Index := Scalar.indexCast v8
  let c0_6 : Index := 0#32
  ![v19.toNat, 0]
def k0_cond2 (i : grid0.Coords) : BitVec 1 :=
  let arg1 : BitVec 32 := BitVec.ofNat 32 (i 1).val
  let arg2 : BitVec 32 := BitVec.ofNat 32 (i 2).val
  let v13 : BitVec 1 := Scalar.cmpi .eq arg1 arg2
  let v14 : BitVec 32 := Scalar.extui v13
  let c0_i32_4 : BitVec 32 := 0#32
  let v15 : BitVec 1 := Scalar.cmpi .ne v14 c0_i32_4
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  h_S512x256 : 0 < S512x256.numel
  transposes_S512x512_p1_0_S512x512 : S512x512.Transposes [1, 0] S512x512
  iota_S512x512_d0_w32 : S512x512.Iotas .tc 32 [0]
  iota_S512x512_d1_w32 : S512x512.Iotas .tc 32 [1]
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S2048x256_S256x256_S2048x256_1_0_0_1_n_n_wf : DotDims.WF S2048x256 S256x256 S2048x256 [1] [0] [0] [1] [] []
  dot_S512x256_S512x256_S512x512_1_1_0_0_n_n_wf : DotDims.WF S512x256 S512x256 S512x512 [1] [1] [0] [0] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x256.size a ≤ S2048x256.size a
  k0_off2_inb : ∀ i : grid0.Coords, ∀ (k0_h3 : k0_cond3 i = 1#1), ∀ a, (k0_off2 i) a + S512x256.size a ≤ S2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S8x2048x2048.size a
  hwx0_5 : ∀ i : grid0.Coords, EltTy.bits .f32 = 32 ∨ (Rect.block (s := S8x2048x2048) S1x512x512.size (cc0_transform_5 i) (hinb0_5 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S8x2048x256 : Shape := ⟨3, ![8, 2048, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S8x2048x2048 : Shape := ⟨3, ![8, 2048, 2048]⟩
abbrev S2048x2048 : Shape := ⟨2, ![2048, 2048]⟩
abbrev S1x2048x2048 : Shape := ⟨3, ![1, 2048, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S8x2048x256, .f32⟩
  | .hbm, ⟨6, _⟩ => ⟨S1x1x256, .f32⟩
  | .hbm, ⟨7, _⟩ => ⟨S8x2048x256, .f32⟩
  | .hbm, ⟨8, _⟩ => ⟨S8x2048x256, .f32⟩
  | .hbm, ⟨9, _⟩ => ⟨S_, .f32⟩
  | .hbm, ⟨10, _⟩ => ⟨S8x2048x256, .f32⟩
  | .hbm, ⟨11, _⟩ => ⟨S8x2048x256, .f32⟩
  | .hbm, ⟨12, _⟩ => ⟨S8x2048x256, .f32⟩
  | .hbm, ⟨13, _⟩ => ⟨S1x1x256, .f32⟩
  | .hbm, ⟨14, _⟩ => ⟨S8x2048x256, .f32⟩
  | .hbm, ⟨15, _⟩ => ⟨S8x2048x256, .f32⟩
  | .hbm, ⟨16, _⟩ => ⟨S_, .f32⟩
  | .hbm, ⟨17, _⟩ => ⟨S8x2048x256, .f32⟩
  | .hbm, ⟨18, _⟩ => ⟨S8x2048x256, .f32⟩
  | .hbm, ⟨19, _⟩ => ⟨S8x2048x2048, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .f32⟩
  | .hbm, ⟨37, _⟩ => ⟨S2048x2048, .i32⟩
  | .hbm, ⟨38, _⟩ => ⟨S2048x2048, .i32⟩
  | .hbm, ⟨39, _⟩ => ⟨S_, .i32⟩
  | .hbm, ⟨40, _⟩ => ⟨S2048x2048, .i32⟩
  | .hbm, ⟨41, _⟩ => ⟨S2048x2048, .i32⟩
  | .hbm, ⟨42, _⟩ => ⟨S2048x2048, .i1⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S1x2048x2048, .f32⟩
  | .hbm, ⟨48, _⟩ => ⟨S8x2048x2048, .f32⟩
  | .hbm, ⟨49, _⟩ => ⟨S8x2048x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  bcast_S_S8x2048x2048 : S_.BroadcastsInDim S8x2048x2048 (![] : Fin 0 → Fin S8x2048x2048.rank)
  transposes_S8x2048x2048_S8x2048x2048_0_2_1 : S8x2048x2048.Transposes [0, 2, 1] S8x2048x2048
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  dot_S8x2048x256_S256x256_S8x2048x256_2_0_01_1_n_n_wf : DotDims.WF S8x2048x256 S256x256 S8x2048x256 [2] [0] [0, 1] [1] [] []
  dot_S8x2048x256_S8x2048x256_S8x2048x2048_2_2_1_1_0_0_wf : DotDims.WF S8x2048x256 S8x2048x256 S8x2048x2048 [2] [2] [1] [1] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf

class Facts : Prop extends Facts₀ where

variable [Facts]
-- ==== Proof.KB.Cases.lean ====
/-
  The grid is (batch b, row tile i, column tile j) = (8, 4, 4), 128 points in row-major order. The body has three
  conditionals: the first (i = 0 and j = 0) recomputes the two projections relu(X_b·W + bias) into the two scratch
  buffers; the second (i = j) stores a diagonal output tile; the third (i ≠ j) stores an off-diagonal one. Exactly
  three combinations occur on the grid: A (i = j = 0), B (i = j ≠ 0), C (i ≠ j). This module states the three
  conditions, decides over the 128 points which combinations occur and that no window is ever idle, and names the
  staging and scratch memrefs the body is called with.
-/
import proofs.«160417_j32298154066180_2_alg».proof.Proof.Gen.Kernel.Launch
import proofs.«160417_j32298154066180_2_alg».proof.Proof.Gen.Kernel.Skeleton
import proofs.«160417_j32298154066180_2_alg».proof.Proof.Gen.Kernel.Points
import proofs.«160417_j32298154066180_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- The first conditional: row tile 0 and column tile 0 (the first point of a batch). -/
abbrev condI (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The second conditional: a diagonal tile, i = j. -/
abbrev condD (i : grid0.Coords) : Prop := k0_cond2 i = 1#1
/-- The third conditional: an off-diagonal tile, i ≠ j. -/
abbrev condO (i : grid0.Coords) : Prop := k0_cond3 i = 1#1

/-- Point t = 16 b + 4 i + j: the first conditional holds exactly at the first point of each batch. -/
theorem hcondI : ∀ t : Fin cfg0.N, condI (grid0.coords t) ↔ t.val % 16 = 0 :=
  (by decide +kernel : ∀ t : Fin grid0.N, condI (grid0.coords t) ↔ t.val % 16 = 0)
/-- The second exactly where the row tile is the column tile. -/
theorem hcondD : ∀ t : Fin cfg0.N, condD (grid0.coords t) ↔ (t.val / 4) % 4 = t.val % 4 :=
  (by decide +kernel : ∀ t : Fin grid0.N, condD (grid0.coords t) ↔ (t.val / 4) % 4 = t.val % 4)
/-- The third exactly where it is not. -/
theorem hcondO : ∀ t : Fin cfg0.N, condO (grid0.coords t) ↔ ¬ (t.val / 4) % 4 = t.val % 4 :=
  (by decide +kernel : ∀ t : Fin grid0.N, condO (grid0.coords t) ↔ ¬ (t.val / 4) % 4 = t.val % 4)

/-! ## No window is idle anywhere: every point stores its output tile -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel

/-! ## The memrefs the body is called with -/

abbrev ms0 (t : Fin cfg0.N) : Memref sig .tc .vmem S1x2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x512 .f32 := win0_5.stage (cfg0.slots t 5)
abbrev hs5 (t : Fin cfg0.N) : (ms5 t).IsWhole := hstage0_5 ((cfg0.slots t 5).cast nbuf0_5)
/-- The two scratch buffers: the projections of the current batch, kept from the batch's first point on. -/
abbrev scQ : Memref sig .tc .vmem S2048x256 .bf16 := Memref.whole cc0_scratch0
abbrev scK : Memref sig .tc .vmem S2048x256 .bf16 := Memref.whole cc0_scratch1
/-- Views through which the contents of the output tile and of the two scratch buffers are stated. -/
abbrev VO : View sig .tc .vmem S1x512x512 .f32 := (Memref.whole cc0_stg5_0 : Memref sig .tc .vmem S1x512x512 .f32).view
abbrev VQ : View sig .tc .vmem S2048x256 .bf16 := scQ.view
abbrev VK : View sig .tc .vmem S2048x256 .bf16 := scK.view

/-- The class invariant with the two scratch buffers as memrefs owned at some contents. -/
theorem PhiA_eq (c : Dev nD) :
    (Pipeline.ΦA spec0 c : sProp 𝕄)
      = iprop(iprop((∃ d, owns (c : Thread nD τ) scQ fullShare d) ∗ (∃ d, owns (c : Thread nD τ) scK fullShare d)) ∗ (∃ r, prngReg c r)) := by
  unfold Pipeline.ΦA; rw [scopedRest0_eq]; simp only [scQ, scK, owns_whole]; try rfl

end Cert.Kernel.Hand

end
-- ==== Proof.KB.RunA.lean ====
/-
  Case A (row tile 0, column tile 0): the body recomputes both projections from the batch's rows of X and the
  weights, stores them whole into the two scratch buffers, reads the first 512 rows of each back, and stores the
  diagonal output tile. The run leaves, as lists of written pieces, what the output tile and the two scratch
  buffers end with; the inputs are handed back as found.
-/
import proofs.«160417_j32298154066180_2_alg».proof.Proof.KB.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg3 : Memref sig .tc .vmem S1x2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S1x512x512 .f32) (harg8 : arg8.IsWhole) (arg9 : Memref sig .tc .vmem S2048x256 .bf16) (harg9 : arg9.IsWhole) (arg10 : Memref sig .tc .vmem S2048x256 .bf16) (harg10 : arg10.IsWhole) (hcI : condI i) (hcD : condD i) (hcO : ¬condO i)
    (x0 : Vec F S1x2048x256 .f32) (x1 : Vec F S256x256 .f32) (x2 : Vec F S256 .f32) (x3 : Vec F S256x256 .f32) (x4 : Vec F S256 .f32) :
    Σ' (L5 : List (View.Piece (Elt F) S1x512x512 .f32)) (LQ : List (View.Piece (Elt F) S2048x256 .bf16)), { LK : List (View.Piece (Elt F) S2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LQ) ∗ (∃ f, arg10.view.loc (c : Thread nD τ) ↦[arg10.view.set]{fullShare} arg10.view.writes (Elt F) f LK)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hcI | exact hcD | exact hcO)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H9]; · iexists _; iexact H9
    iexists _; iexact H10

end Cert.Kernel.Hand

end
-- ==== Proof.KB.RunB.lean ====
/-
  Case B (a diagonal tile other than the batch's first point): the body reads rows 512·i … 512·i+511 of both
  projections out of the scratch buffers, which it leaves as it found them, and stores the diagonal output tile.
-/
import proofs.«160417_j32298154066180_2_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg3 : Memref sig .tc .vmem S1x2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S1x512x512 .f32) (harg8 : arg8.IsWhole) (arg9 : Memref sig .tc .vmem S2048x256 .bf16) (harg9 : arg9.IsWhole) (arg10 : Memref sig .tc .vmem S2048x256 .bf16) (harg10 : arg10.IsWhole) (hcI : ¬condI i) (hcD : condD i) (hcO : ¬condO i)
    (x0 : Vec F S1x2048x256 .f32) (x1 : Vec F S256x256 .f32) (x2 : Vec F S256 .f32) (x3 : Vec F S256x256 .f32) (x4 : Vec F S256 .f32) (xq : Vec F S2048x256 .bf16) (xk : Vec F S2048x256 .bf16) :
    { L5 : List (View.Piece (Elt F) S1x512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xq ∗ owns (c : Thread nD τ) arg10 fullShare xk
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xq ∗ owns (c : Thread nD τ) arg10 fullShare xk) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, ⟨%f10, %hf10, H10⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hf9; obtain rfl := harg10.eq_unread hf10
    sl_exec (disch := first | exact hcI | exact hcD | exact hcO)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H9]
    · iexists _; isplitr; · ipureintro; exact harg9.read_unread _
      iexact H9
    iexists _; isplitr; · ipureintro; exact harg10.read_unread _
    iexact H10

end Cert.Kernel.Hand

end
-- ==== Proof.KB.RunC.lean ====
/-
  Case C (an off-diagonal tile): the body reads the row tile's and the column tile's 512 rows of both projections
  out of the scratch buffers, which it leaves as it found them, and stores the off-diagonal output tile.
-/
import proofs.«160417_j32298154066180_2_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg3 : Memref sig .tc .vmem S1x2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S1x512x512 .f32) (harg8 : arg8.IsWhole) (arg9 : Memref sig .tc .vmem S2048x256 .bf16) (harg9 : arg9.IsWhole) (arg10 : Memref sig .tc .vmem S2048x256 .bf16) (harg10 : arg10.IsWhole) (hcI : ¬condI i) (hcD : ¬condD i) (hcO : condO i)
    (x0 : Vec F S1x2048x256 .f32) (x1 : Vec F S256x256 .f32) (x2 : Vec F S256 .f32) (x3 : Vec F S256x256 .f32) (x4 : Vec F S256 .f32) (xq : Vec F S2048x256 .bf16) (xk : Vec F S2048x256 .bf16) :
    { L5 : List (View.Piece (Elt F) S1x512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xq ∗ owns (c : Thread nD τ) arg10 fullShare xk
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xq ∗ owns (c : Thread nD τ) arg10 fullShare xk) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, ⟨%f10, %hf10, H10⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hf9; obtain rfl := harg10.eq_unread hf10
    sl_exec (disch := first | exact hcI | exact hcD | exact hcO)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H9]
    · iexists _; isplitr; · ipureintro; exact harg9.read_unread _
      iexact H9
    iexists _; isplitr; · ipureintro; exact harg10.read_unread _
    iexact H10

end Cert.Kernel.Hand

end
-- ==== Proof.KB.Frame.lean ====
/-
  The frame of the kernel's one region. After point n the output tile's staging buffer holds what that point's case
  stored, and the two scratch buffers hold the projections computed at the first point of n's batch: case A (the
  batch's first point) writes them, cases B and C leave them as the point before left them. The region invariant
  carries exactly that: before the first point the scratch buffers hold anything, before any later point they hold
  what the recursion says. Every point stores its whole output tile and every window is live everywhere, so the
  body obligation is one run per case; the launch is the library's frame run with a tracked invariant.
-/
import proofs.«160417_j32298154066180_2_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point, on the point's memrefs and input blocks -/

def runA (c : Dev nD) (t : Fin cfg0.N) (hI : t.val % 16 = 0) :=
  kernelRunA (F := F) c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) ((hcondI t).mpr hI) ((hcondD t).mpr (by omega)) (fun h => (hcondO t).mp h (by omega)) (iblk m c 0 t) (iblk m c 1 t) (iblk m c 2 t) (iblk m c 3 t) (iblk m c 4 t)

def runB (c : Dev nD) (t : Fin cfg0.N) (hI : ¬t.val % 16 = 0) (hD : (t.val / 4) % 4 = t.val % 4) (xq xk : Vec F S2048x256 .bf16) :=
  kernelRunB (F := F) c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) (fun h => hI ((hcondI t).mp h)) ((hcondD t).mpr hD) (fun h => (hcondO t).mp h hD) (iblk m c 0 t) (iblk m c 1 t) (iblk m c 2 t) (iblk m c 3 t) (iblk m c 4 t) xq xk

def runC (c : Dev nD) (t : Fin cfg0.N) (hI : ¬t.val % 16 = 0) (hD : ¬(t.val / 4) % 4 = t.val % 4) (xq xk : Vec F S2048x256 .bf16) :=
  kernelRunC (F := F) c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) (fun h => hI ((hcondI t).mp h)) (fun h => hD ((hcondD t).mp h)) ((hcondO t).mpr hD) (iblk m c 0 t) (iblk m c 1 t) (iblk m c 2 t) (iblk m c 3 t) (iblk m c 4 t) xq xk

/-! ## The written pieces cover their buffers: each case stores its buffers whole -/

theorem coverA5 (c : Dev nD) (t : Fin cfg0.N) (hI : t.val % 16 = 0) (y : S1x512x512.Idx) : ∃ pc ∈ (runA m c t hI).1, y ∈ pc.1.set :=
  View.cover_of_tiledL (runA m c t hI).1 S1x512x512.size (by sl_kernel_rfl) y
theorem coverAQ (c : Dev nD) (t : Fin cfg0.N) (hI : t.val % 16 = 0) (y : S2048x256.Idx) : ∃ pc ∈ (runA m c t hI).2.1, y ∈ pc.1.set :=
  View.cover_of_tiledL (runA m c t hI).2.1 S2048x256.size (by sl_kernel_rfl) y
theorem coverAK (c : Dev nD) (t : Fin cfg0.N) (hI : t.val % 16 = 0) (y : S2048x256.Idx) : ∃ pc ∈ (runA m c t hI).2.2.1, y ∈ pc.1.set :=
  View.cover_of_tiledL (runA m c t hI).2.2.1 S2048x256.size (by sl_kernel_rfl) y
theorem coverB5 (c : Dev nD) (t : Fin cfg0.N) (hI : ¬t.val % 16 = 0) (hD : (t.val / 4) % 4 = t.val % 4) (xq xk : Vec F S2048x256 .bf16) (y : S1x512x512.Idx) :
    ∃ pc ∈ (runB m c t hI hD xq xk).1, y ∈ pc.1.set :=
  View.cover_of_tiledL (runB m c t hI hD xq xk).1 S1x512x512.size (by sl_kernel_rfl) y
theorem coverC5 (c : Dev nD) (t : Fin cfg0.N) (hI : ¬t.val % 16 = 0) (hD : ¬(t.val / 4) % 4 = t.val % 4) (xq xk : Vec F S2048x256 .bf16) (y : S1x512x512.Idx) :
    ∃ pc ∈ (runC m c t hI hD xq xk).1, y ∈ pc.1.set :=
  View.cover_of_tiledL (runC m c t hI hD xq xk).1 S1x512x512.size (by sl_kernel_rfl) y

/-! ## What each case leaves -/

def outA (c : Dev nD) (t : Fin cfg0.N) (hI : t.val % 16 = 0) : Vec F S1x512x512 .f32 :=
  VO.read (Elt F) (VO.writes (Elt F) VO.junk (runA m c t hI).1)
def projQ (c : Dev nD) (t : Fin cfg0.N) (hI : t.val % 16 = 0) : Vec F S2048x256 .bf16 :=
  VQ.read (Elt F) (VQ.writes (Elt F) VQ.junk (runA m c t hI).2.1)
def projK (c : Dev nD) (t : Fin cfg0.N) (hI : t.val % 16 = 0) : Vec F S2048x256 .bf16 :=
  VK.read (Elt F) (VK.writes (Elt F) VK.junk (runA m c t hI).2.2.1)
def outB (c : Dev nD) (t : Fin cfg0.N) (hI : ¬t.val % 16 = 0) (hD : (t.val / 4) % 4 = t.val % 4) (xq xk : Vec F S2048x256 .bf16) : Vec F S1x512x512 .f32 :=
  VO.read (Elt F) (VO.writes (Elt F) VO.junk (runB m c t hI hD xq xk).1)
def outC (c : Dev nD) (t : Fin cfg0.N) (hI : ¬t.val % 16 = 0) (hD : ¬(t.val / 4) % 4 = t.val % 4) (xq xk : Vec F S2048x256 .bf16) : Vec F S1x512x512 .f32 :=
  VO.read (Elt F) (VO.writes (Elt F) VO.junk (runC m c t hI hD xq xk).1)

/-- After point n: the output tile's staging buffer, then the two scratch buffers. -/
def outsAt (c : Dev nD) : (n : ℕ) → n < cfg0.N → Vec F S1x512x512 .f32 × Vec F S2048x256 .bf16 × Vec F S2048x256 .bf16
  | 0, hn => (outA m c ⟨0, hn⟩ (Nat.zero_mod _), projQ m c ⟨0, hn⟩ (Nat.zero_mod _), projK m c ⟨0, hn⟩ (Nat.zero_mod _))
  | n + 1, hn =>
    if hI : (n + 1) % 16 = 0 then
      (outA m c ⟨n + 1, hn⟩ hI, projQ m c ⟨n + 1, hn⟩ hI, projK m c ⟨n + 1, hn⟩ hI)
    else
      if hD : ((n + 1) / 4) % 4 = (n + 1) % 4 then
        (outB m c ⟨n + 1, hn⟩ hI hD (outsAt c n (Nat.lt_of_succ_lt hn)).2.1 (outsAt c n (Nat.lt_of_succ_lt hn)).2.2,
          (outsAt c n (Nat.lt_of_succ_lt hn)).2.1, (outsAt c n (Nat.lt_of_succ_lt hn)).2.2)
      else
        (outC m c ⟨n + 1, hn⟩ hI hD (outsAt c n (Nat.lt_of_succ_lt hn)).2.1 (outsAt c n (Nat.lt_of_succ_lt hn)).2.2,
          (outsAt c n (Nat.lt_of_succ_lt hn)).2.1, (outsAt c n (Nat.lt_of_succ_lt hn)).2.2)

theorem outsAt_A (c : Dev nD) (t : Fin cfg0.N) (hI : t.val % 16 = 0) :
    outsAt m c t.val t.isLt = (outA m c t hI, projQ m c t hI, projK m c t hI) := by
  obtain ⟨n, hn⟩ := t
  cases n with
  | zero => rfl
  | succ n => exact (dif_pos hI).trans rfl

theorem outsAt_B (c : Dev nD) (t : Fin cfg0.N) (hI : ¬t.val % 16 = 0) (hD : (t.val / 4) % 4 = t.val % 4) :
    outsAt m c t.val t.isLt = (outB m c t hI hD (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact absurd (Nat.zero_mod _) hI
  | succ n => exact (dif_neg hI).trans ((dif_pos hD).trans rfl)

theorem outsAt_C (c : Dev nD) (t : Fin cfg0.N) (hI : ¬t.val % 16 = 0) (hD : ¬(t.val / 4) % 4 = t.val % 4) :
    outsAt m c t.val t.isLt = (outC m c t hI hD (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact absurd (Nat.zero_mod _) hI
  | succ n => exact (dif_neg hI).trans ((dif_neg hD).trans rfl)

/-! ## The region invariant: the scratch buffers at what the point before left -/

def PhiS (c : Dev nD) : (n : ℕ) → n ≤ cfg0.N → sProp 𝕄
  | 0, _ => Pipeline.ΦA spec0 c
  | n + 1, hn => iprop(iprop(owns (c : Thread nD τ) scQ fullShare ((outsAt m c n hn).2.1) ∗ owns (c : Thread nD τ) scK fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scQ fullShare ((outsAt m c n hn).2.1) ∗ owns (c : Thread nD τ) scK fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scQ fullShare ((outsAt m c (n - 1) (by omega)).2.1) ∗ owns (c : Thread nD τ) scK fullShare ((outsAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  by_cases hI : t.val % 16 = 0
  · rw [outsAt_A m c t hI]
    unfold outA projQ projK; (try dsimp only)
    by_cases hz : t.val = 0
    ·
      rw [PhiS_castSucc m c t, PhiS_zero m c _ _ hz, PhiA_eq]
      iintro ⟨⟨⟨HQ, HK⟩, Hg⟩, Ho, ⟨%d0, H0⟩, ⟨%d1, H1⟩, ⟨%d2, H2⟩, ⟨%d3, H3⟩, ⟨%d4, H4⟩, ⟨%d5, H5⟩⟩
      iapply ((runA m c t hI).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HQ]; · iexact HQ
      isplitl [HK]; · iexact HK
      iintro ⟨H0, H1, H2, H3, H4, ⟨%e5, H5⟩, ⟨%eq, HQ⟩, ⟨%ek, HK⟩⟩
      isplitl [HQ HK Hg]
      · isplitl [HQ HK]
        · isplitl [HQ]
          · unfold owns; iexists _; isplitr
            swap; · iexact HQ
            ipureintro; exact View.read_writes_of_cover _ _ _ _ _ (coverAQ m c t hI)
          · unfold owns; iexists _; isplitr
            swap; · iexact HK
            ipureintro; exact View.read_writes_of_cover _ _ _ _ _ (coverAK m c t hI)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 m c t hI)
    ·
      rw [PhiS_castSucc m c t, PhiS_pos m c _ _ hz]
      iintro ⟨⟨⟨HQ, HK⟩, Hg⟩, Ho, ⟨%d0, H0⟩, ⟨%d1, H1⟩, ⟨%d2, H2⟩, ⟨%d3, H3⟩, ⟨%d4, H4⟩, ⟨%d5, H5⟩⟩
      iapply ((runA m c t hI).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HQ]; · iexists _; iexact HQ
      isplitl [HK]; · iexists _; iexact HK
      iintro ⟨H0, H1, H2, H3, H4, ⟨%e5, H5⟩, ⟨%eq, HQ⟩, ⟨%ek, HK⟩⟩
      isplitl [HQ HK Hg]
      · isplitl [HQ HK]
        · isplitl [HQ]
          · unfold owns; iexists _; isplitr
            swap; · iexact HQ
            ipureintro; exact View.read_writes_of_cover _ _ _ _ _ (coverAQ m c t hI)
          · unfold owns; iexists _; isplitr
            swap; · iexact HK
            ipureintro; exact View.read_writes_of_cover _ _ _ _ _ (coverAK m c t hI)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 m c t hI)
  · have hz : t.val ≠ 0 := fun h => hI (by rw [h])
    by_cases hD : (t.val / 4) % 4 = t.val % 4
    · rw [outsAt_B m c t hI hD]
      unfold outB; (try dsimp only)
      rw [PhiS_castSucc m c t, PhiS_pos m c _ _ hz]
      iintro ⟨⟨⟨HQ, HK⟩, Hg⟩, Ho, ⟨%d0, H0⟩, ⟨%d1, H1⟩, ⟨%d2, H2⟩, ⟨%d3, H3⟩, ⟨%d4, H4⟩, ⟨%d5, H5⟩⟩
      iapply ((runB m c t hI hD _ _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HQ]; · iexact HQ
      isplitl [HK]; · iexact HK
      iintro ⟨H0, H1, H2, H3, H4, ⟨%e5, H5⟩, HQ, HK⟩
      isplitl [HQ HK Hg]
      · isplitl [HQ HK]
        · isplitl [HQ]; · iexact HQ
          iexact HK
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverB5 m c t hI hD _ _)
    · rw [outsAt_C m c t hI hD]
      unfold outC; (try dsimp only)
      rw [PhiS_castSucc m c t, PhiS_pos m c _ _ hz]
      iintro ⟨⟨⟨HQ, HK⟩, Hg⟩, Ho, ⟨%d0, H0⟩, ⟨%d1, H1⟩, ⟨%d2, H2⟩, ⟨%d3, H3⟩, ⟨%d4, H4⟩, ⟨%d5, H5⟩⟩
      iapply ((runC m c t hI hD _ _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HQ]; · iexact HQ
      isplitl [HK]; · iexact HK
      iintro ⟨H0, H1, H2, H3, H4, ⟨%e5, H5⟩, HQ, HK⟩
      isplitl [HQ HK Hg]
      · isplitl [HQ HK]
        · isplitl [HQ]; · iexact HQ
          iexact HK
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC5 m c t hI hD _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HQ, HK⟩, Hg⟩
  isplitl [HQ HK]
  · isplitl [HQ]
    · iexists _; iexact HQ
    iexists _; iexact HK
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KI.Cases.lean ====
/-
  The grid is (batch b, row tile i, column tile j) = (8, 4, 4), 128 points in row-major order. The body has three
  conditionals: the first (i = 0 and j = 0) recomputes the two projections relu(X_b·W + bias) into the two scratch
  buffers; the second (i = j) stores a diagonal output tile; the third (i ≠ j) stores an off-diagonal one. Exactly
  three combinations occur on the grid: A (i = j = 0), B (i = j ≠ 0), C (i ≠ j). This module states the three
  conditions, decides over the 128 points which combinations occur and that no window is ever idle, and names the
  staging and scratch memrefs the body is called with.
-/
import proofs.«160417_j32298154066180_2_alg».proof.Proof.Gen.KernelIdeal.Launch
import proofs.«160417_j32298154066180_2_alg».proof.Proof.Gen.KernelIdeal.Skeleton
import proofs.«160417_j32298154066180_2_alg».proof.Proof.Gen.KernelIdeal.Points
import proofs.«160417_j32298154066180_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- The first conditional: row tile 0 and column tile 0 (the first point of a batch). -/
abbrev condI (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The second conditional: a diagonal tile, i = j. -/
abbrev condD (i : grid0.Coords) : Prop := k0_cond2 i = 1#1
/-- The third conditional: an off-diagonal tile, i ≠ j. -/
abbrev condO (i : grid0.Coords) : Prop := k0_cond3 i = 1#1

/-- Point t = 16 b + 4 i + j: the first conditional holds exactly at the first point of each batch. -/
theorem hcondI : ∀ t : Fin cfg0.N, condI (grid0.coords t) ↔ t.val % 16 = 0 :=
  (by decide +kernel : ∀ t : Fin grid0.N, condI (grid0.coords t) ↔ t.val % 16 = 0)
/-- The second exactly where the row tile is the column tile. -/
theorem hcondD : ∀ t : Fin cfg0.N, condD (grid0.coords t) ↔ (t.val / 4) % 4 = t.val % 4 :=
  (by decide +kernel : ∀ t : Fin grid0.N, condD (grid0.coords t) ↔ (t.val / 4) % 4 = t.val % 4)
/-- The third exactly where it is not. -/
theorem hcondO : ∀ t : Fin cfg0.N, condO (grid0.coords t) ↔ ¬ (t.val / 4) % 4 = t.val % 4 :=
  (by decide +kernel : ∀ t : Fin grid0.N, condO (grid0.coords t) ↔ ¬ (t.val / 4) % 4 = t.val % 4)

/-! ## No window is idle anywhere: every point stores its output tile -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel

/-! ## The memrefs the body is called with -/

abbrev ms0 (t : Fin cfg0.N) : Memref sig .tc .vmem S1x2048x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x512 .f32 := win0_5.stage (cfg0.slots t 5)
abbrev hs5 (t : Fin cfg0.N) : (ms5 t).IsWhole := hstage0_5 ((cfg0.slots t 5).cast nbuf0_5)
/-- The two scratch buffers: the projections of the current batch, kept from the batch's first point on. -/
abbrev scQ : Memref sig .tc .vmem S2048x256 .bf16 := Memref.whole cc0_scratch0
abbrev scK : Memref sig .tc .vmem S2048x256 .bf16 := Memref.whole cc0_scratch1
/-- Views through which the contents of the output tile and of the two scratch buffers are stated. -/
abbrev VO : View sig .tc .vmem S1x512x512 .f32 := (Memref.whole cc0_stg5_0 : Memref sig .tc .vmem S1x512x512 .f32).view
abbrev VQ : View sig .tc .vmem S2048x256 .bf16 := scQ.view
abbrev VK : View sig .tc .vmem S2048x256 .bf16 := scK.view

/-- The class invariant with the two scratch buffers as memrefs owned at some contents. -/
theorem PhiA_eq (c : Dev nD) :
    (Pipeline.ΦA spec0 c : sProp 𝕄)
      = iprop(iprop((∃ d, owns (c : Thread nD τ) scQ fullShare d) ∗ (∃ d, owns (c : Thread nD τ) scK fullShare d)) ∗ (∃ r, prngReg c r)) := by
  unfold Pipeline.ΦA; rw [scopedRest0_eq]; simp only [scQ, scK, owns_whole]; try rfl

end Cert.KernelIdeal.Hand

end
-- ==== Proof.KI.RunA.lean ====
/-
  Case A (row tile 0, column tile 0): the body recomputes both projections from the batch's rows of X and the
  weights, stores them whole into the two scratch buffers, reads the first 512 rows of each back, and stores the
  diagonal output tile. The run leaves, as lists of written pieces, what the output tile and the two scratch
  buffers end with; the inputs are handed back as found.
-/
import proofs.«160417_j32298154066180_2_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunA (c : Dev nD) (i : grid0.Coords) (arg3 : Memref sig .tc .vmem S1x2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S1x512x512 .f32) (harg8 : arg8.IsWhole) (arg9 : Memref sig .tc .vmem S2048x256 .bf16) (harg9 : arg9.IsWhole) (arg10 : Memref sig .tc .vmem S2048x256 .bf16) (harg10 : arg10.IsWhole) (hcI : condI i) (hcD : condD i) (hcO : ¬condO i)
    (x0 : Vec F S1x2048x256 .f32) (x1 : Vec F S256x256 .f32) (x2 : Vec F S256 .f32) (x3 : Vec F S256x256 .f32) (x4 : Vec F S256 .f32) :
    Σ' (L5 : List (View.Piece (Elt F) S1x512x512 .f32)) (LQ : List (View.Piece (Elt F) S2048x256 .bf16)), { LK : List (View.Piece (Elt F) S2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LQ) ∗ (∃ f, arg10.view.loc (c : Thread nD τ) ↦[arg10.view.set]{fullShare} arg10.view.writes (Elt F) f LK)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hcI | exact hcD | exact hcO)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H9]; · iexists _; iexact H9
    iexists _; iexact H10

end Cert.KernelIdeal.Hand

end
-- ==== Proof.KI.RunB.lean ====
/-
  Case B (a diagonal tile other than the batch's first point): the body reads rows 512·i … 512·i+511 of both
  projections out of the scratch buffers, which it leaves as it found them, and stores the diagonal output tile.
-/
import proofs.«160417_j32298154066180_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunB (c : Dev nD) (i : grid0.Coords) (arg3 : Memref sig .tc .vmem S1x2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S1x512x512 .f32) (harg8 : arg8.IsWhole) (arg9 : Memref sig .tc .vmem S2048x256 .bf16) (harg9 : arg9.IsWhole) (arg10 : Memref sig .tc .vmem S2048x256 .bf16) (harg10 : arg10.IsWhole) (hcI : ¬condI i) (hcD : condD i) (hcO : ¬condO i)
    (x0 : Vec F S1x2048x256 .f32) (x1 : Vec F S256x256 .f32) (x2 : Vec F S256 .f32) (x3 : Vec F S256x256 .f32) (x4 : Vec F S256 .f32) (xq : Vec F S2048x256 .bf16) (xk : Vec F S2048x256 .bf16) :
    { L5 : List (View.Piece (Elt F) S1x512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xq ∗ owns (c : Thread nD τ) arg10 fullShare xk
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xq ∗ owns (c : Thread nD τ) arg10 fullShare xk) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, ⟨%f10, %hf10, H10⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hf9; obtain rfl := harg10.eq_unread hf10
    sl_exec (disch := first | exact hcI | exact hcD | exact hcO)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H9]
    · iexists _; isplitr; · ipureintro; exact harg9.read_unread _
      iexact H9
    iexists _; isplitr; · ipureintro; exact harg10.read_unread _
    iexact H10

end Cert.KernelIdeal.Hand

end
-- ==== Proof.KI.RunC.lean ====
/-
  Case C (an off-diagonal tile): the body reads the row tile's and the column tile's 512 rows of both projections
  out of the scratch buffers, which it leaves as it found them, and stores the off-diagonal output tile.
-/
import proofs.«160417_j32298154066180_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRunC (c : Dev nD) (i : grid0.Coords) (arg3 : Memref sig .tc .vmem S1x2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S1x512x512 .f32) (harg8 : arg8.IsWhole) (arg9 : Memref sig .tc .vmem S2048x256 .bf16) (harg9 : arg9.IsWhole) (arg10 : Memref sig .tc .vmem S2048x256 .bf16) (harg10 : arg10.IsWhole) (hcI : ¬condI i) (hcD : ¬condD i) (hcO : condO i)
    (x0 : Vec F S1x2048x256 .f32) (x1 : Vec F S256x256 .f32) (x2 : Vec F S256 .f32) (x3 : Vec F S256x256 .f32) (x4 : Vec F S256 .f32) (xq : Vec F S2048x256 .bf16) (xk : Vec F S2048x256 .bf16) :
    { L5 : List (View.Piece (Elt F) S1x512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xq ∗ owns (c : Thread nD τ) arg10 fullShare xk
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xq ∗ owns (c : Thread nD τ) arg10 fullShare xk) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, ⟨%f10, %hf10, H10⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hf9; obtain rfl := harg10.eq_unread hf10
    sl_exec (disch := first | exact hcI | exact hcD | exact hcO)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H9]
    · iexists _; isplitr; · ipureintro; exact harg9.read_unread _
      iexact H9
    iexists _; isplitr; · ipureintro; exact harg10.read_unread _
    iexact H10

end Cert.KernelIdeal.Hand

end
-- ==== Proof.KI.Pieces.lean ====
/-
  What the written pieces of each case are, as terms of the point's input blocks and of what the scratch buffers
  held: at a batch's first point the two scratch buffers end holding the two projections of the batch's rows, and the
  output tile is the diagonal formula over the first 512 rows of each; at any other point the scratch buffers are
  only read — 512 rows at the row tile's offset, and for an off-diagonal tile 512 more at the column tile's offset —
  and the output tile is the diagonal or the off-diagonal formula over those rows.
-/
import proofs.«160417_j32298154066180_2_alg».proof.Proof.KI.RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole-shape rectangle at zero offsets, read back: the payload, whatever was there before. -/
theorem read_store_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

section
variable (c : Dev nD) (i : grid0.Coords) (arg3 : Memref sig .tc .vmem S1x2048x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S1x512x512 .f32) (harg8 : arg8.IsWhole) (arg9 : Memref sig .tc .vmem S2048x256 .bf16) (harg9 : arg9.IsWhole) (arg10 : Memref sig .tc .vmem S2048x256 .bf16) (harg10 : arg10.IsWhole)
variable (x0 : Vec F S1x2048x256 .f32) (x1 : Vec F S256x256 .f32) (x2 : Vec F S256 .f32) (x3 : Vec F S256x256 .f32) (x4 : Vec F S256 .f32)

/-! ### Case A -/
section
variable (hcI : condI i) (hcD : condD i) (hcO : ¬condO i)

theorem coverA5g (y : S1x512x512.Idx) : ∃ pc ∈ (kernelRunA c i arg3 harg3 arg4 harg4 arg5 harg5 arg6 harg6 arg7 harg7 arg8 harg8 arg9 harg9 arg10 harg10 hcI hcD hcO x0 x1 x2 x3 x4).1, y ∈ pc.1.set :=
  View.cover_of_tiledL _ S1x512x512.size (by sl_kernel_rfl) y
theorem coverAQg (y : S2048x256.Idx) : ∃ pc ∈ (kernelRunA c i arg3 harg3 arg4 harg4 arg5 harg5 arg6 harg6 arg7 harg7 arg8 harg8 arg9 harg9 arg10 harg10 hcI hcD hcO x0 x1 x2 x3 x4).2.1, y ∈ pc.1.set :=
  View.cover_of_tiledL _ S2048x256.size (by sl_kernel_rfl) y
theorem coverAKg (y : S2048x256.Idx) : ∃ pc ∈ (kernelRunA c i arg3 harg3 arg4 harg4 arg5 harg5 arg6 harg6 arg7 harg7 arg8 harg8 arg9 harg9 arg10 harg10 hcI hcD hcO x0 x1 x2 x3 x4).2.2.1, y ∈ pc.1.set :=
  View.cover_of_tiledL _ S2048x256.size (by sl_kernel_rfl) y

/-- The first scratch buffer ends holding the first projection. -/
theorem pieceAQ : VQ.read (Elt F) (VQ.writes (Elt F) VQ.junk (kernelRunA c i arg3 harg3 arg4 harg4 arg5 harg5 arg6 harg6 arg7 harg7 arg8 harg8 arg9 harg9 arg10 harg10 hcI hcD hcO x0 x1 x2 x3 x4).2.1) = k0_pay2 x0 x1 x2 := by
  rw [View.read_writes_eq_canon _ _ _ (coverAQg c i arg3 harg3 arg4 harg4 arg5 harg5 arg6 harg6 arg7 harg7 arg8 harg8 arg9 harg9 arg10 harg10 x0 x1 x2 x3 x4 hcI hcD hcO)]
  unfold kernelRunA
  dsimp only
  try sl_unfold_words
  rw [View.canon_unit_zero hz2]
  simp only [View.readAt_eq_ld, harg3.read_unread, harg4.read_unread, harg5.read_unread, harg6.read_unread, harg7.read_unread, harg9.read_unread, harg10.read_unread,
    View.ld_unit_zero (S := S1x2048x256) hz3, View.ld_unit_zero (S := S256x256) hz2, View.ld_unit_zero (S := S256) hz1]

/-- The second scratch buffer ends holding the second projection. -/
theorem pieceAK : VK.read (Elt F) (VK.writes (Elt F) VK.junk (kernelRunA c i arg3 harg3 arg4 harg4 arg5 harg5 arg6 harg6 arg7 harg7 arg8 harg8 arg9 harg9 arg10 harg10 hcI hcD hcO x0 x1 x2 x3 x4).2.2.1) = k0_pay3 x0 x3 x4 := by
  rw [View.read_writes_eq_canon _ _ _ (coverAKg c i arg3 harg3 arg4 harg4 arg5 harg5 arg6 harg6 arg7 harg7 arg8 harg8 arg9 harg9 arg10 harg10 x0 x1 x2 x3 x4 hcI hcD hcO)]
  unfold kernelRunA
  dsimp only
  try sl_unfold_words
  rw [View.canon_unit_zero hz2]
  simp only [View.readAt_eq_ld, harg3.read_unread, harg4.read_unread, harg5.read_unread, harg6.read_unread, harg7.read_unread, harg9.read_unread, harg10.read_unread,
    View.ld_unit_zero (S := S1x2048x256) hz3, View.ld_unit_zero (S := S256x256) hz2, View.ld_unit_zero (S := S256) hz1]

/-- The output tile: the diagonal formula over the row tile's rows of the projections just stored. -/
theorem pieceA5 : VO.read (Elt F) (VO.writes (Elt F) VO.junk (kernelRunA c i arg3 harg3 arg4 harg4 arg5 harg5 arg6 harg6 arg7 harg7 arg8 harg8 arg9 harg9 arg10 harg10 hcI hcD hcO x0 x1 x2 x3 x4).1)
    = k0_pay4 (View.ld (k0_pay2 x0 x1 x2) (Rect.unit (s := S2048x256) (k0_off1 i) S512x256.size (k0_off1_inb i))) (View.ld (k0_pay3 x0 x3 x4) (Rect.unit (s := S2048x256) (k0_off1 i) S512x256.size (k0_off1_inb i))) := by
  rw [View.read_writes_eq_canon _ _ _ (coverA5g c i arg3 harg3 arg4 harg4 arg5 harg5 arg6 harg6 arg7 harg7 arg8 harg8 arg9 harg9 arg10 harg10 x0 x1 x2 x3 x4 hcI hcD hcO)]
  unfold kernelRunA
  dsimp only
  try sl_unfold_words
  rw [View.canon_unit_zero hz3]
  simp only [View.readAt_eq_ld, harg3.read_unread, harg4.read_unread, harg5.read_unread, harg6.read_unread, harg7.read_unread, harg9.read_unread, harg10.read_unread,
    View.ld_unit_zero (S := S1x2048x256) hz3, View.ld_unit_zero (S := S256x256) hz2, View.ld_unit_zero (S := S256) hz1]
  rw [read_store_whole _ _ hz2, read_store_whole _ _ hz2]
end

/-! ### Cases B and C -/
variable (xq xk : Vec F S2048x256 .bf16)

section
variable (hcI : ¬condI i) (hcD : condD i) (hcO : ¬condO i)
theorem coverB5g (y : S1x512x512.Idx) : ∃ pc ∈ (kernelRunB c i arg3 harg3 arg4 harg4 arg5 harg5 arg6 harg6 arg7 harg7 arg8 harg8 arg9 harg9 arg10 harg10 hcI hcD hcO x0 x1 x2 x3 x4 xq xk).1, y ∈ pc.1.set :=
  View.cover_of_tiledL _ S1x512x512.size (by sl_kernel_rfl) y

theorem pieceB5 : VO.read (Elt F) (VO.writes (Elt F) VO.junk (kernelRunB c i arg3 harg3 arg4 harg4 arg5 harg5 arg6 harg6 arg7 harg7 arg8 harg8 arg9 harg9 arg10 harg10 hcI hcD hcO x0 x1 x2 x3 x4 xq xk).1)
    = k0_pay4 (View.ld xq (Rect.unit (s := S2048x256) (k0_off1 i) S512x256.size (k0_off1_inb i))) (View.ld xk (Rect.unit (s := S2048x256) (k0_off1 i) S512x256.size (k0_off1_inb i))) := by
  rw [View.read_writes_eq_canon _ _ _ (coverB5g c i arg3 harg3 arg4 harg4 arg5 harg5 arg6 harg6 arg7 harg7 arg8 harg8 arg9 harg9 arg10 harg10 x0 x1 x2 x3 x4 xq xk hcI hcD hcO)]
  unfold kernelRunB
  dsimp only
  try sl_unfold_words
  rw [View.canon_unit_zero hz3]
  simp only [View.readAt_eq_ld, harg3.read_unread, harg4.read_unread, harg5.read_unread, harg6.read_unread, harg7.read_unread, harg9.read_unread, harg10.read_unread,
    View.ld_unit_zero (S := S1x2048x256) hz3, View.ld_unit_zero (S := S256x256) hz2, View.ld_unit_zero (S := S256) hz1]
end

section
variable (hcI : ¬condI i) (hcD : ¬condD i) (hcO : condO i)
theorem coverC5g (y : S1x512x512.Idx) : ∃ pc ∈ (kernelRunC c i arg3 harg3 arg4 harg4 arg5 harg5 arg6 harg6 arg7 harg7 arg8 harg8 arg9 harg9 arg10 harg10 hcI hcD hcO x0 x1 x2 x3 x4 xq xk).1, y ∈ pc.1.set :=
  View.cover_of_tiledL _ S1x512x512.size (by sl_kernel_rfl) y

theorem pieceC5 : VO.read (Elt F) (VO.writes (Elt F) VO.junk (kernelRunC c i arg3 harg3 arg4 harg4 arg5 harg5 arg6 harg6 arg7 harg7 arg8 harg8 arg9 harg9 arg10 harg10 hcI hcD hcO x0 x1 x2 x3 x4 xq xk).1)
    = k0_pay5 (View.ld xq (Rect.unit (s := S2048x256) (k0_off1 i) S512x256.size (k0_off1_inb i))) (View.ld xk (Rect.unit (s := S2048x256) (k0_off1 i) S512x256.size (k0_off1_inb i))) (View.ld xq (Rect.unit (s := S2048x256) (k0_off2 i) S512x256.size (k0_off2_inb i hcO))) (View.ld xk (Rect.unit (s := S2048x256) (k0_off2 i) S512x256.size (k0_off2_inb i hcO))) := by
  rw [View.read_writes_eq_canon _ _ _ (coverC5g c i arg3 harg3 arg4 harg4 arg5 harg5 arg6 harg6 arg7 harg7 arg8 harg8 arg9 harg9 arg10 harg10 x0 x1 x2 x3 x4 xq xk hcI hcD hcO)]
  unfold kernelRunC
  dsimp only
  try sl_unfold_words
  rw [View.canon_unit_zero hz3]
  simp only [View.readAt_eq_ld, harg3.read_unread, harg4.read_unread, harg5.read_unread, harg6.read_unread, harg7.read_unread, harg9.read_unread, harg10.read_unread,
    View.ld_unit_zero (S := S1x2048x256) hz3, View.ld_unit_zero (S := S256x256) hz2, View.ld_unit_zero (S := S256) hz1]
end
end

end Cert.KernelIdeal.Hand

end
-- ==== Proof.KI.Frame.lean ====
/-
  The frame of the kernel's one region. After point n the output tile's staging buffer holds what that point's case
  stored, and the two scratch buffers hold the projections computed at the first point of n's batch: case A (the
  batch's first point) writes them, cases B and C leave them as the point before left them. The region invariant
  carries exactly that: before the first point the scratch buffers hold anything, before any later point they hold
  what the recursion says. Every point stores its whole output tile and every window is live everywhere, so the
  body obligation is one run per case; the launch is the library's frame run with a tracked invariant.
-/
import proofs.«160417_j32298154066180_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point, on the point's memrefs and input blocks -/

def runA (c : Dev nD) (t : Fin cfg0.N) (hI : t.val % 16 = 0) :=
  kernelRunA (F := F) c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) ((hcondI t).mpr hI) ((hcondD t).mpr (by omega)) (fun h => (hcondO t).mp h (by omega)) (iblk m c 0 t) (iblk m c 1 t) (iblk m c 2 t) (iblk m c 3 t) (iblk m c 4 t)

def runB (c : Dev nD) (t : Fin cfg0.N) (hI : ¬t.val % 16 = 0) (hD : (t.val / 4) % 4 = t.val % 4) (xq xk : Vec F S2048x256 .bf16) :=
  kernelRunB (F := F) c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) (fun h => hI ((hcondI t).mp h)) ((hcondD t).mpr hD) (fun h => (hcondO t).mp h hD) (iblk m c 0 t) (iblk m c 1 t) (iblk m c 2 t) (iblk m c 3 t) (iblk m c 4 t) xq xk

def runC (c : Dev nD) (t : Fin cfg0.N) (hI : ¬t.val % 16 = 0) (hD : ¬(t.val / 4) % 4 = t.val % 4) (xq xk : Vec F S2048x256 .bf16) :=
  kernelRunC (F := F) c (grid0.coords t) (ms0 t) (hs0 t) (ms1 t) (hs1 t) (ms2 t) (hs2 t) (ms3 t) (hs3 t) (ms4 t) (hs4 t) (ms5 t) (hs5 t) scQ (Memref.isWhole_whole _) scK (Memref.isWhole_whole _) (fun h => hI ((hcondI t).mp h)) (fun h => hD ((hcondD t).mp h)) ((hcondO t).mpr hD) (iblk m c 0 t) (iblk m c 1 t) (iblk m c 2 t) (iblk m c 3 t) (iblk m c 4 t) xq xk

/-! ## The written pieces cover their buffers: each case stores its buffers whole -/

theorem coverA5 (c : Dev nD) (t : Fin cfg0.N) (hI : t.val % 16 = 0) (y : S1x512x512.Idx) : ∃ pc ∈ (runA m c t hI).1, y ∈ pc.1.set :=
  View.cover_of_tiledL (runA m c t hI).1 S1x512x512.size (by sl_kernel_rfl) y
theorem coverAQ (c : Dev nD) (t : Fin cfg0.N) (hI : t.val % 16 = 0) (y : S2048x256.Idx) : ∃ pc ∈ (runA m c t hI).2.1, y ∈ pc.1.set :=
  View.cover_of_tiledL (runA m c t hI).2.1 S2048x256.size (by sl_kernel_rfl) y
theorem coverAK (c : Dev nD) (t : Fin cfg0.N) (hI : t.val % 16 = 0) (y : S2048x256.Idx) : ∃ pc ∈ (runA m c t hI).2.2.1, y ∈ pc.1.set :=
  View.cover_of_tiledL (runA m c t hI).2.2.1 S2048x256.size (by sl_kernel_rfl) y
theorem coverB5 (c : Dev nD) (t : Fin cfg0.N) (hI : ¬t.val % 16 = 0) (hD : (t.val / 4) % 4 = t.val % 4) (xq xk : Vec F S2048x256 .bf16) (y : S1x512x512.Idx) :
    ∃ pc ∈ (runB m c t hI hD xq xk).1, y ∈ pc.1.set :=
  View.cover_of_tiledL (runB m c t hI hD xq xk).1 S1x512x512.size (by sl_kernel_rfl) y
theorem coverC5 (c : Dev nD) (t : Fin cfg0.N) (hI : ¬t.val % 16 = 0) (hD : ¬(t.val / 4) % 4 = t.val % 4) (xq xk : Vec F S2048x256 .bf16) (y : S1x512x512.Idx) :
    ∃ pc ∈ (runC m c t hI hD xq xk).1, y ∈ pc.1.set :=
  View.cover_of_tiledL (runC m c t hI hD xq xk).1 S1x512x512.size (by sl_kernel_rfl) y

/-! ## What each case leaves -/

def outA (c : Dev nD) (t : Fin cfg0.N) (hI : t.val % 16 = 0) : Vec F S1x512x512 .f32 :=
  VO.read (Elt F) (VO.writes (Elt F) VO.junk (runA m c t hI).1)
def projQ (c : Dev nD) (t : Fin cfg0.N) (hI : t.val % 16 = 0) : Vec F S2048x256 .bf16 :=
  VQ.read (Elt F) (VQ.writes (Elt F) VQ.junk (runA m c t hI).2.1)
def projK (c : Dev nD) (t : Fin cfg0.N) (hI : t.val % 16 = 0) : Vec F S2048x256 .bf16 :=
  VK.read (Elt F) (VK.writes (Elt F) VK.junk (runA m c t hI).2.2.1)
def outB (c : Dev nD) (t : Fin cfg0.N) (hI : ¬t.val % 16 = 0) (hD : (t.val / 4) % 4 = t.val % 4) (xq xk : Vec F S2048x256 .bf16) : Vec F S1x512x512 .f32 :=
  VO.read (Elt F) (VO.writes (Elt F) VO.junk (runB m c t hI hD xq xk).1)
def outC (c : Dev nD) (t : Fin cfg0.N) (hI : ¬t.val % 16 = 0) (hD : ¬(t.val / 4) % 4 = t.val % 4) (xq xk : Vec F S2048x256 .bf16) : Vec F S1x512x512 .f32 :=
  VO.read (Elt F) (VO.writes (Elt F) VO.junk (runC m c t hI hD xq xk).1)

/-- After point n: the output tile's staging buffer, then the two scratch buffers. -/
def outsAt (c : Dev nD) : (n : ℕ) → n < cfg0.N → Vec F S1x512x512 .f32 × Vec F S2048x256 .bf16 × Vec F S2048x256 .bf16
  | 0, hn => (outA m c ⟨0, hn⟩ (Nat.zero_mod _), projQ m c ⟨0, hn⟩ (Nat.zero_mod _), projK m c ⟨0, hn⟩ (Nat.zero_mod _))
  | n + 1, hn =>
    if hI : (n + 1) % 16 = 0 then
      (outA m c ⟨n + 1, hn⟩ hI, projQ m c ⟨n + 1, hn⟩ hI, projK m c ⟨n + 1, hn⟩ hI)
    else
      if hD : ((n + 1) / 4) % 4 = (n + 1) % 4 then
        (outB m c ⟨n + 1, hn⟩ hI hD (outsAt c n (Nat.lt_of_succ_lt hn)).2.1 (outsAt c n (Nat.lt_of_succ_lt hn)).2.2,
          (outsAt c n (Nat.lt_of_succ_lt hn)).2.1, (outsAt c n (Nat.lt_of_succ_lt hn)).2.2)
      else
        (outC m c ⟨n + 1, hn⟩ hI hD (outsAt c n (Nat.lt_of_succ_lt hn)).2.1 (outsAt c n (Nat.lt_of_succ_lt hn)).2.2,
          (outsAt c n (Nat.lt_of_succ_lt hn)).2.1, (outsAt c n (Nat.lt_of_succ_lt hn)).2.2)

theorem outsAt_A (c : Dev nD) (t : Fin cfg0.N) (hI : t.val % 16 = 0) :
    outsAt m c t.val t.isLt = (outA m c t hI, projQ m c t hI, projK m c t hI) := by
  obtain ⟨n, hn⟩ := t
  cases n with
  | zero => rfl
  | succ n => exact (dif_pos hI).trans rfl

theorem outsAt_B (c : Dev nD) (t : Fin cfg0.N) (hI : ¬t.val % 16 = 0) (hD : (t.val / 4) % 4 = t.val % 4) :
    outsAt m c t.val t.isLt = (outB m c t hI hD (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact absurd (Nat.zero_mod _) hI
  | succ n => exact (dif_neg hI).trans ((dif_pos hD).trans rfl)

theorem outsAt_C (c : Dev nD) (t : Fin cfg0.N) (hI : ¬t.val % 16 = 0) (hD : ¬(t.val / 4) % 4 = t.val % 4) :
    outsAt m c t.val t.isLt = (outC m c t hI hD (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact absurd (Nat.zero_mod _) hI
  | succ n => exact (dif_neg hI).trans ((dif_neg hD).trans rfl)

/-! ## The region invariant: the scratch buffers at what the point before left -/

def PhiS (c : Dev nD) : (n : ℕ) → n ≤ cfg0.N → sProp 𝕄
  | 0, _ => Pipeline.ΦA spec0 c
  | n + 1, hn => iprop(iprop(owns (c : Thread nD τ) scQ fullShare ((outsAt m c n hn).2.1) ∗ owns (c : Thread nD τ) scK fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scQ fullShare ((outsAt m c n hn).2.1) ∗ owns (c : Thread nD τ) scK fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scQ fullShare ((outsAt m c (n - 1) (by omega)).2.1) ∗ owns (c : Thread nD τ) scK fullShare ((outsAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  by_cases hI : t.val % 16 = 0
  · rw [outsAt_A m c t hI]
    unfold outA projQ projK; (try dsimp only)
    by_cases hz : t.val = 0
    ·
      rw [PhiS_castSucc m c t, PhiS_zero m c _ _ hz, PhiA_eq]
      iintro ⟨⟨⟨HQ, HK⟩, Hg⟩, Ho, ⟨%d0, H0⟩, ⟨%d1, H1⟩, ⟨%d2, H2⟩, ⟨%d3, H3⟩, ⟨%d4, H4⟩, ⟨%d5, H5⟩⟩
      iapply ((runA m c t hI).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HQ]; · iexact HQ
      isplitl [HK]; · iexact HK
      iintro ⟨H0, H1, H2, H3, H4, ⟨%e5, H5⟩, ⟨%eq, HQ⟩, ⟨%ek, HK⟩⟩
      isplitl [HQ HK Hg]
      · isplitl [HQ HK]
        · isplitl [HQ]
          · unfold owns; iexists _; isplitr
            swap; · iexact HQ
            ipureintro; exact View.read_writes_of_cover _ _ _ _ _ (coverAQ m c t hI)
          · unfold owns; iexists _; isplitr
            swap; · iexact HK
            ipureintro; exact View.read_writes_of_cover _ _ _ _ _ (coverAK m c t hI)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 m c t hI)
    ·
      rw [PhiS_castSucc m c t, PhiS_pos m c _ _ hz]
      iintro ⟨⟨⟨HQ, HK⟩, Hg⟩, Ho, ⟨%d0, H0⟩, ⟨%d1, H1⟩, ⟨%d2, H2⟩, ⟨%d3, H3⟩, ⟨%d4, H4⟩, ⟨%d5, H5⟩⟩
      iapply ((runA m c t hI).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HQ]; · iexists _; iexact HQ
      isplitl [HK]; · iexists _; iexact HK
      iintro ⟨H0, H1, H2, H3, H4, ⟨%e5, H5⟩, ⟨%eq, HQ⟩, ⟨%ek, HK⟩⟩
      isplitl [HQ HK Hg]
      · isplitl [HQ HK]
        · isplitl [HQ]
          · unfold owns; iexists _; isplitr
            swap; · iexact HQ
            ipureintro; exact View.read_writes_of_cover _ _ _ _ _ (coverAQ m c t hI)
          · unfold owns; iexists _; isplitr
            swap; · iexact HK
            ipureintro; exact View.read_writes_of_cover _ _ _ _ _ (coverAK m c t hI)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 m c t hI)
  · have hz : t.val ≠ 0 := fun h => hI (by rw [h])
    by_cases hD : (t.val / 4) % 4 = t.val % 4
    · rw [outsAt_B m c t hI hD]
      unfold outB; (try dsimp only)
      rw [PhiS_castSucc m c t, PhiS_pos m c _ _ hz]
      iintro ⟨⟨⟨HQ, HK⟩, Hg⟩, Ho, ⟨%d0, H0⟩, ⟨%d1, H1⟩, ⟨%d2, H2⟩, ⟨%d3, H3⟩, ⟨%d4, H4⟩, ⟨%d5, H5⟩⟩
      iapply ((runB m c t hI hD _ _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HQ]; · iexact HQ
      isplitl [HK]; · iexact HK
      iintro ⟨H0, H1, H2, H3, H4, ⟨%e5, H5⟩, HQ, HK⟩
      isplitl [HQ HK Hg]
      · isplitl [HQ HK]
        · isplitl [HQ]; · iexact HQ
          iexact HK
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverB5 m c t hI hD _ _)
    · rw [outsAt_C m c t hI hD]
      unfold outC; (try dsimp only)
      rw [PhiS_castSucc m c t, PhiS_pos m c _ _ hz]
      iintro ⟨⟨⟨HQ, HK⟩, Hg⟩, Ho, ⟨%d0, H0⟩, ⟨%d1, H1⟩, ⟨%d2, H2⟩, ⟨%d3, H3⟩, ⟨%d4, H4⟩, ⟨%d5, H5⟩⟩
      iapply ((runC m c t hI hD _ _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HQ]; · iexact HQ
      isplitl [HK]; · iexact HK
      iintro ⟨H0, H1, H2, H3, H4, ⟨%e5, H5⟩, HQ, HK⟩
      isplitl [HQ HK Hg]
      · isplitl [HQ HK]
        · isplitl [HQ]; · iexact HQ
          iexact HK
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC5 m c t hI hD _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HQ, HK⟩, Hg⟩
  isplitl [HQ HK]
  · isplitl [HQ]
    · iexists _; iexact HQ
    iexists _; iexact HK
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KI.Blocks.lean ====
/-
  The input windows' blocks, as reads of the argument arrays. Window 0 stages one batch's rows of X: at point
  t = 16 b + 4 i + j its block is rows (b, ·, ·) of the array. Windows 1 to 4 stage the two weight matrices and the
  two bias vectors whole, at every point.
-/
import proofs.«160417_j32298154066180_2_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The batch of point t. -/
def bOf (t : Fin cfg0.N) : Fin 8 := ⟨t.val / 16, by have := t.isLt; have : cfg0.N = 128 := N_0; omega⟩

theorem index0 : ∀ t : Fin cfg0.N, win0_0.index t 0 = t.val / 16 ∧ win0_0.index t 1 = 0 ∧ win0_0.index t 2 = 0 :=
  (by decide +kernel : ∀ t : Fin grid0.N, win0_0.index t 0 = t.val / 16 ∧ win0_0.index t 1 = 0 ∧ win0_0.index t 2 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 :=
  (by decide +kernel : ∀ t : Fin grid0.N, win0_2.index t 0 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 :=
  (by decide +kernel : ∀ t : Fin grid0.N, win0_4.index t 0 = 0)

/-- One batch's rows of X, as a [1, 2048, 256] block. -/
def Xb (c : Dev nD) (b : Fin 8) : Vec F S1x2048x256 .f32 :=
  fun y => (m ((c : Thread nD τ).loc main_arg0) : S8x2048x256.Idx → Elt F .f32) (ix3 b (y 1) (y 2))

theorem iblk0_eq (c : Dev nD) (t : Fin cfg0.N) : (iblk m c 0 t : Vec F S1x2048x256 .f32) = Xb m c (bOf t) := by
  funext (x : S1x2048x256.Idx)
  have hi := index0 t
  have h0 : (x 0).val = 0 := by
    have h := (x 0).isLt
    change (x 0).val < 1 at h
    omega
  unfold iblk Xb
  rw [View.read_apply]
  show V m c main_arg0 _ = m (c.tc.loc main_arg0) _
  unfold V
  congr 1
  funext a
  apply Fin.ext
  match a with
  | ⟨0, _⟩ => show win0_0.index t 0 * 1 + 1 * (x 0).val = t.val / 16; rw [hi.1, h0]; omega
  | ⟨1, _⟩ => show win0_0.index t 1 * 2048 + 1 * (x 1).val = (x 1).val; rw [hi.2.1]; omega
  | ⟨2, _⟩ => show win0_0.index t 2 * 256 + 1 * (x 2).val = (x 2).val; rw [hi.2.2]; omega

theorem iblk1_eq (c : Dev nD) (t : Fin cfg0.N) :
    (iblk m c 1 t : Vec F S256x256 .f32) = (m ((c : Thread nD τ).loc main_arg1) : S256x256.Idx → Elt F .f32) := by
  funext x
  have hi := index1 t
  unfold iblk
  rw [View.read_apply]
  show V m c main_arg1 _ = m (c.tc.loc main_arg1) _
  unfold V
  congr 1
  funext a
  apply Fin.ext
  match a with
  | ⟨0, _⟩ => show win0_1.index t 0 * 256 + 1 * (x 0).val = (x 0).val; rw [hi.1]; omega
  | ⟨1, _⟩ => show win0_1.index t 1 * 256 + 1 * (x 1).val = (x 1).val; rw [hi.2]; omega

theorem iblk2_eq (c : Dev nD) (t : Fin cfg0.N) :
    (iblk m c 2 t : Vec F S256 .f32) = (m ((c : Thread nD τ).loc main_arg2) : S256.Idx → Elt F .f32) := by
  funext x
  have hi := index2 t
  unfold iblk
  rw [View.read_apply]
  show V m c main_arg2 _ = m (c.tc.loc main_arg2) _
  unfold V
  congr 1
  funext a
  apply Fin.ext
  match a with
  | ⟨0, _⟩ => show win0_2.index t 0 * 256 + 1 * (x 0).val = (x 0).val; rw [hi]; omega

theorem iblk3_eq (c : Dev nD) (t : Fin cfg0.N) :
    (iblk m c 3 t : Vec F S256x256 .f32) = (m ((c : Thread nD τ).loc main_arg3) : S256x256.Idx → Elt F .f32) := by
  funext x
  have hi := index3 t
  unfold iblk
  rw [View.read_apply]
  show V m c main_arg3 _ = m (c.tc.loc main_arg3) _
  unfold V
  congr 1
  funext a
  apply Fin.ext
  match a with
  | ⟨0, _⟩ => show win0_3.index t 0 * 256 + 1 * (x 0).val = (x 0).val; rw [hi.1]; omega
  | ⟨1, _⟩ => show win0_3.index t 1 * 256 + 1 * (x 1).val = (x 1).val; rw [hi.2]; omega

theorem iblk4_eq (c : Dev nD) (t : Fin cfg0.N) :
    (iblk m c 4 t : Vec F S256 .f32) = (m ((c : Thread nD τ).loc main_arg4) : S256.Idx → Elt F .f32) := by
  funext x
  have hi := index4 t
  unfold iblk
  rw [View.read_apply]
  show V m c main_arg4 _ = m (c.tc.loc main_arg4) _
  unfold V
  congr 1
  funext a
  apply Fin.ext
  match a with
  | ⟨0, _⟩ => show win0_4.index t 0 * 256 + 1 * (x 0).val = (x 0).val; rw [hi]; omega

end Cert.KernelIdeal.Hand

end
-- ==== Proof.KI.Scratch.lean ====
/-
  What the scratch buffers hold, and what each point stores into its output tile.

  After every point of batch b the first scratch buffer holds the first projection of batch b's rows and the second
  the second: the batch's first point stores them, and every later point of the batch leaves them alone, while the
  staged block of X does not change within a batch. So at every point the output tile is the diagonal formula (row
  tile = column tile) or the off-diagonal formula over 512-row slices of those two projections.
-/
import proofs.«160417_j32298154066180_2_alg».proof.Proof.KI.Pieces
import proofs.«160417_j32298154066180_2_alg».proof.Proof.KI.Blocks
import proofs.«160417_j32298154066180_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- below, what each case leaves enters only through the equations that name it
attribute [local irreducible] projQ projK outA outB outC runA runB runC

/-- The two projections of batch b, as the body computes them from the argument arrays. -/
def QA (c : Dev nD) (b : Fin 8) : Vec F S2048x256 .bf16 :=
  k0_pay2 (Xb m c b) (m ((c : Thread nD τ).loc main_arg1) : S256x256.Idx → Elt F .f32) (m ((c : Thread nD τ).loc main_arg2) : S256.Idx → Elt F .f32)
def KA (c : Dev nD) (b : Fin 8) : Vec F S2048x256 .bf16 :=
  k0_pay3 (Xb m c b) (m ((c : Thread nD τ).loc main_arg3) : S256x256.Idx → Elt F .f32) (m ((c : Thread nD τ).loc main_arg4) : S256.Idx → Elt F .f32)

theorem projQ_eq (c : Dev nD) (t : Fin cfg0.N) (hI : t.val % 16 = 0) : projQ m c t hI = QA m c (bOf t) := by
  unfold projQ runA QA
  refine (pieceAQ c _ _ _ _ _ _ _ _ _ _ _ _ _ _ _ _ _ _ _ _ _ _ _ _ _).trans ?_
  rw [iblk0_eq m c t, iblk1_eq m c t, iblk2_eq m c t]

theorem projK_eq (c : Dev nD) (t : Fin cfg0.N) (hI : t.val % 16 = 0) : projK m c t hI = KA m c (bOf t) := by
  unfold projK runA KA
  refine (pieceAK c _ _ _ _ _ _ _ _ _ _ _ _ _ _ _ _ _ _ _ _ _ _ _ _ _).trans ?_
  rw [iblk0_eq m c t, iblk3_eq m c t, iblk4_eq m c t]

theorem bOf_pred (n : ℕ) (hn : n + 1 < cfg0.N) (hI : ¬(n + 1) % 16 = 0) : bOf ⟨n, Nat.lt_of_succ_lt hn⟩ = bOf ⟨n + 1, hn⟩ :=
  Fin.ext (by show n / 16 = (n + 1) / 16; omega)

/-! ### The recursion, component by component -/

theorem outsAt_A_Q (c : Dev nD) (t : Fin cfg0.N) (hI : t.val % 16 = 0) : (outsAt m c t.val t.isLt).2.1 = projQ m c t hI := by
  rw [outsAt_A m c t hI]
theorem outsAt_A_K (c : Dev nD) (t : Fin cfg0.N) (hI : t.val % 16 = 0) : (outsAt m c t.val t.isLt).2.2 = projK m c t hI := by
  rw [outsAt_A m c t hI]
theorem outsAt_A_O (c : Dev nD) (t : Fin cfg0.N) (hI : t.val % 16 = 0) : (outsAt m c t.val t.isLt).1 = outA m c t hI := by
  rw [outsAt_A m c t hI]
theorem outsAt_B_O (c : Dev nD) (t : Fin cfg0.N) (hI : ¬t.val % 16 = 0) (hD : (t.val / 4) % 4 = t.val % 4) :
    (outsAt m c t.val t.isLt).1 = outB m c t hI hD (outsAt m c (t.val - 1) (Nat.lt_of_le_of_lt (Nat.sub_le _ _) t.isLt)).2.1 (outsAt m c (t.val - 1) (Nat.lt_of_le_of_lt (Nat.sub_le _ _) t.isLt)).2.2 := by
  rw [outsAt_B m c t hI hD]
theorem outsAt_C_O (c : Dev nD) (t : Fin cfg0.N) (hI : ¬t.val % 16 = 0) (hD : ¬(t.val / 4) % 4 = t.val % 4) :
    (outsAt m c t.val t.isLt).1 = outC m c t hI hD (outsAt m c (t.val - 1) (Nat.lt_of_le_of_lt (Nat.sub_le _ _) t.isLt)).2.1 (outsAt m c (t.val - 1) (Nat.lt_of_le_of_lt (Nat.sub_le _ _) t.isLt)).2.2 := by
  rw [outsAt_C m c t hI hD]

/-- A point that is not its batch's first leaves both scratch buffers as the point before left them. -/
theorem outsAt_keep (c : Dev nD) (n : ℕ) (hn : n + 1 < cfg0.N) (hI : ¬(n + 1) % 16 = 0) :
    (outsAt m c (n + 1) hn).2.1 = (outsAt m c n (Nat.lt_of_succ_lt hn)).2.1
    ∧ (outsAt m c (n + 1) hn).2.2 = (outsAt m c n (Nat.lt_of_succ_lt hn)).2.2 := by
  by_cases hD : ((n + 1) / 4) % 4 = (n + 1) % 4
  · rw [outsAt_B m c ⟨n + 1, hn⟩ hI hD]; exact ⟨rfl, rfl⟩
  · rw [outsAt_C m c ⟨n + 1, hn⟩ hI hD]; exact ⟨rfl, rfl⟩

/-- The scratch buffers after point n hold the projections of n's batch. -/
theorem scratch_inv (c : Dev nD) : ∀ (n : ℕ) (hn : n < cfg0.N),
    (outsAt m c n hn).2.1 = QA m c (bOf ⟨n, hn⟩) ∧ (outsAt m c n hn).2.2 = KA m c (bOf ⟨n, hn⟩) := by
  intro n
  induction n with
  | zero =>
    intro hn
    exact ⟨(outsAt_A_Q m c ⟨0, hn⟩ (Nat.zero_mod _)).trans (projQ_eq m c ⟨0, hn⟩ (Nat.zero_mod _)),
      (outsAt_A_K m c ⟨0, hn⟩ (Nat.zero_mod _)).trans (projK_eq m c ⟨0, hn⟩ (Nat.zero_mod _))⟩
  | succ n ih =>
    intro hn
    by_cases hI : (n + 1) % 16 = 0
    · exact ⟨(outsAt_A_Q m c ⟨n + 1, hn⟩ hI).trans (projQ_eq m c ⟨n + 1, hn⟩ hI),
        (outsAt_A_K m c ⟨n + 1, hn⟩ hI).trans (projK_eq m c ⟨n + 1, hn⟩ hI)⟩
    · have ihn := ih (Nat.lt_of_succ_lt hn)
      rw [bOf_pred n hn hI] at ihn
      exact ⟨(outsAt_keep m c n hn hI).1.trans ihn.1, (outsAt_keep m c n hn hI).2.trans ihn.2⟩

/-- Before a point that is not its batch's first, the scratch buffers already hold the batch's projections. -/
theorem scratch_before (c : Dev nD) (t : Fin cfg0.N) (hI : ¬t.val % 16 = 0) :
    (outsAt m c (t.val - 1) (Nat.lt_of_le_of_lt (Nat.sub_le _ _) t.isLt)).2.1 = QA m c (bOf t)
    ∧ (outsAt m c (t.val - 1) (Nat.lt_of_le_of_lt (Nat.sub_le _ _) t.isLt)).2.2 = KA m c (bOf t) := by
  obtain ⟨n, hn⟩ := t
  cases n with
  | zero => exact absurd (Nat.zero_mod _) hI
  | succ n =>
    have ihn := scratch_inv m c n (Nat.lt_of_succ_lt hn)
    rw [bOf_pred n hn hI] at ihn
    exact ihn

/-- A diagonal tile: the diagonal formula over the row tile's 512 rows of the batch's two projections. -/
theorem out_diag (c : Dev nD) (t : Fin cfg0.N) (hD : (t.val / 4) % 4 = t.val % 4) :
    (outsAt m c t.val t.isLt).1 = k0_pay4 (View.ld (QA m c (bOf t)) (Rect.unit (s := S2048x256) (k0_off1 (grid0.coords t)) S512x256.size (k0_off1_inb (grid0.coords t)))) (View.ld (KA m c (bOf t)) (Rect.unit (s := S2048x256) (k0_off1 (grid0.coords t)) S512x256.size (k0_off1_inb (grid0.coords t)))) := by
  by_cases hI : t.val % 16 = 0
  · refine (outsAt_A_O m c t hI).trans ?_
    unfold outA runA QA KA
    refine (pieceA5 c _ _ _ _ _ _ _ _ _ _ _ _ _ _ _ _ _ _ _ _ _ _ _ _ _).trans ?_
    rw [iblk0_eq m c t, iblk1_eq m c t, iblk2_eq m c t, iblk3_eq m c t, iblk4_eq m c t]
  · refine (outsAt_B_O m c t hI hD).trans ?_
    rw [(scratch_before m c t hI).1, (scratch_before m c t hI).2]
    unfold outB runB
    exact pieceB5 c _ _ _ _ _ _ _ _ _ _ _ _ _ _ _ _ _ _ _ _ _ _ _ _ _ _ _

/-- An off-diagonal tile: the off-diagonal formula over the row tile's and the column tile's rows. -/
theorem out_off (c : Dev nD) (t : Fin cfg0.N) (hD : ¬(t.val / 4) % 4 = t.val % 4) :
    (outsAt m c t.val t.isLt).1 = k0_pay5 (View.ld (QA m c (bOf t)) (Rect.unit (s := S2048x256) (k0_off1 (grid0.coords t)) S512x256.size (k0_off1_inb (grid0.coords t)))) (View.ld (KA m c (bOf t)) (Rect.unit (s := S2048x256) (k0_off1 (grid0.coords t)) S512x256.size (k0_off1_inb (grid0.coords t))))
      (View.ld (QA m c (bOf t)) (Rect.unit (s := S2048x256) (k0_off2 (grid0.coords t)) S512x256.size (k0_off2_inb (grid0.coords t) ((hcondO t).mpr hD)))) (View.ld (KA m c (bOf t)) (Rect.unit (s := S2048x256) (k0_off2 (grid0.coords t)) S512x256.size (k0_off2_inb (grid0.coords t) ((hcondO t).mpr hD)))) := by
  have hI : ¬t.val % 16 = 0 := fun h => hD (by omega)
  refine (outsAt_C_O m c t hI hD).trans ?_
  rw [(scratch_before m c t hI).1, (scratch_before m c t hI).2]
  unfold outC runC
  exact pieceC5 c _ _ _ _ _ _ _ _ _ _ _ _ _ _ _ _ _ _ _ _ _ _ _ _ _ _ _

end Cert.KernelIdeal.Hand

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.KI.Payload.lean ====
/-
  The body's arithmetic read at an index, on the extended reals.

  The projection payloads: entry (n, e) is max(Σ_d x(0, n, d)·W(d, e) + β(e), 0) — the changes of float format are
  the identity, the product into the zero accumulator is the plain sum over the contracted coordinate, and the
  bias is broadcast down the rows.
  The diagonal-tile payload over 512 rows q, k of the two projections: entry (a, c) is 0 where a = c and otherwise
  ½·(σ(a, c) + σ(c, a)) with σ(a, c) = sigmoid((Σ_d q(a, d)·k(c, d))·0.0625) — the second summand is the transpose of
  the first.
  The off-diagonal payload over the row tile's rows q, k and the column tile's rows q', k': entry (a, c) is
  ½·(sigmoid((Σ_d q(a, d)·k'(c, d))·0.0625) + sigmoid((Σ_d k(a, d)·q'(c, d))·0.0625)).
-/
import proofs.«160417_j32298154066180_2_alg».proof.Proof.Gen.KernelIdeal.Skeleton
import proofs.«160417_j32298154066180_2_alg».proof.Proof.LibDot
import proofs.«160417_j32298154066180_2_alg».proof.Proof.LibDotT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The batch's rows as a 2048 × 256 matrix. -/
theorem pay1_apply (x : Vec Ideal S1x2048x256 .f32) (n : Fin 2048) (d : Fin 256) :
    k0_pay1 x (ix2 n d) = x (ix3 0 n d) := by
  unfold k0_pay1
  simp only [truncf_apply]
  rw [shapeCast_dropUnit_apply ![2048, 256]]
  congr 1
  funext a
  match a with
  | ⟨0, _⟩ => rfl
  | ⟨1, _⟩ => rfl
  | ⟨2, _⟩ => rfl

/-- The bias broadcast down the rows. -/
theorem bias_apply (β : Vec Ideal S256 .f32) (n : Fin 2048) (e : Fin 256) :
    broadcastTo S2048x256 (shapeCast S1x256 β shapeCasts_S256_S1x256) broadcasts_S1x256_S2048x256 (ix2 n e) = β (ix1 e) := by
  rw [broadcastTo_apply _ _ (ix2 n e) (ix2 (0 : Fin 1) e) (fun a => by
    match a with
    | ⟨0, _⟩ => rfl
    | ⟨1, _⟩ => rfl)]
  rw [shapeCast_addUnit_apply ![256]]
  congr 1
  funext a
  match a with
  | ⟨0, _⟩ => rfl

/-- The first projection's payload at (n, e). -/
theorem pay2_apply (x : Vec Ideal S1x2048x256 .f32) (W : Vec Ideal S256x256 .f32) (β : Vec Ideal S256 .f32) (n : Fin 2048) (e : Fin 256) :
    k0_pay2 x W β (ix2 n e)
      = max ((∑ d : Fin 256, x (ix3 0 n d) * W (ix2 d e)) + β (ix1 e)) (Ideal.ofBits .f32 0x00000000#32) := by
  unfold k0_pay2
  rw [shapeCast_self]
  have h1 : FloatOps.matmul dot_S2048x256_S256x256_S2048x256_1_0_0_1_n_n none (k0_pay1 x) (truncf .bf16 W bitsLt_bf16_f32)
      (constant S2048x256 .f32 0x00000000#32) (ix2 n e) = ∑ d : Fin 256, x (ix3 0 n d) * W (ix2 d e) := by
    refine (Cert.LibDot.matmul_zero_plain_apply dot_S2048x256_S256x256_S2048x256_1_0_0_1_n_n rfl rfl rfl rfl rfl rfl none
      (k0_pay1 x) (truncf .bf16 W bitsLt_bf16_f32) (ix2 n e)).trans ?_
    refine Finset.sum_congr rfl fun d _ => ?_
    show k0_pay1 x (ix2 n d) * W (ix2 d e) = _
    rw [pay1_apply]
  exact congrArg₂ max (congrArg₂ (· + ·) h1 (bias_apply β n e)) rfl

/-- The second projection's payload at (n, e). -/
theorem pay3_apply (x : Vec Ideal S1x2048x256 .f32) (W : Vec Ideal S256x256 .f32) (β : Vec Ideal S256 .f32) (n : Fin 2048) (e : Fin 256) :
    k0_pay3 x W β (ix2 n e)
      = max ((∑ d : Fin 256, x (ix3 0 n d) * W (ix2 d e)) + β (ix1 e)) (Ideal.ofBits .f32 0x00000000#32) := by
  unfold k0_pay3
  rw [shapeCast_self]
  have h1 : FloatOps.matmul dot_S2048x256_S256x256_S2048x256_1_0_0_1_n_n none (k0_pay1 x) (truncf .bf16 W bitsLt_bf16_f32)
      (constant S2048x256 .f32 0x00000000#32) (ix2 n e) = ∑ d : Fin 256, x (ix3 0 n d) * W (ix2 d e) := by
    refine (Cert.LibDot.matmul_zero_plain_apply dot_S2048x256_S256x256_S2048x256_1_0_0_1_n_n rfl rfl rfl rfl rfl rfl none
      (k0_pay1 x) (truncf .bf16 W bitsLt_bf16_f32) (ix2 n e)).trans ?_
    refine Finset.sum_congr rfl fun d _ => ?_
    show k0_pay1 x (ix2 n d) * W (ix2 d e) = _
    rw [pay1_apply]
  exact congrArg₂ max (congrArg₂ (· + ·) h1 (bias_apply β n e)) rfl

/-- The scaled sigmoid of row a of u against row c of v. -/
def sg (u v : FVec Ideal S512x256 .bf16) (a c : Fin 512) : EReal :=
  Ideal.logistic ((∑ d : Fin 256, u (ix2 a d) * v (ix2 c d)) * Ideal.ofBits .f32 0x3D800000#32)

theorem score_apply (u v : FVec Ideal S512x256 .bf16) (a c : Fin 512) :
    logistic (mulf (FloatOps.matmul dot_S512x256_S512x256_S512x512_1_1_0_0_n_n none u v (constant S512x512 .f32 0x00000000#32))
      (broadcast S512x512 (Scalar.ofBits (F := Ideal) .f32 0x3D800000#32))) (ix2 a c) = sg u v a c := by
  have h1 := Cert.LibDotT.matmul_zero_transposed_apply dot_S512x256_S512x256_S512x512_1_1_0_0_n_n rfl rfl rfl rfl rfl rfl none u v (ix2 a c)
  unfold sg
  exact congrArg (fun z => Ideal.logistic (z * Ideal.ofBits .f32 0x3D800000#32)) h1

/-- The diagonal-tile payload at (0, a, c). -/
theorem pay4_apply (q k : FVec Ideal S512x256 .bf16) (a c : Fin 512) :
    k0_pay4 q k (ix3 0 a c)
      = Scalar.select (IntOp.cmpi .eq (BitVec.ofNat 32 a.val) (BitVec.ofNat 32 c.val)) (Ideal.ofBits .f32 0x00000000#32)
          (Ideal.ofBits .f32 0x3F000000#32 * (sg q k a c + sg q k c a)) := by
  unfold k0_pay4
  rw [shapeCast_addUnit_apply ![512, 512]]
  have e : (fun a' : Fin 2 => (ix3 (0 : Fin 1) a c) a'.succ) = ix2 a c := funext fun a' => by
    match a' with
    | ⟨0, _⟩ => rfl
    | ⟨1, _⟩ => rfl
  rw [e]
  simp only [select_apply, mulf_apply, addf_apply, broadcast_apply]
  rw [transpose_apply [1, 0] _ transposes_S512x512_p1_0_S512x512 (ix2 a c) (ix2 c a) (fun b => by
    match b with
    | ⟨0, _⟩ => rfl
    | ⟨1, _⟩ => rfl)]
  rw [score_apply, score_apply]
  show Scalar.select (IntOp.cmpi .eq (iota .tc S512x512 32 [0] iota_S512x512_d0_w32 (ix2 a c)) (iota .tc S512x512 32 [1] iota_S512x512_d1_w32 (ix2 a c))) _ _ = _
  rw [iota_single_apply, iota_single_apply]
  rfl

/-- The off-diagonal payload at (0, a, c). -/
theorem pay5_apply (q k q' k' : FVec Ideal S512x256 .bf16) (a c : Fin 512) :
    k0_pay5 q k q' k' (ix3 0 a c) = Ideal.ofBits .f32 0x3F000000#32 * (sg q k' a c + sg k q' a c) := by
  unfold k0_pay5
  rw [shapeCast_addUnit_apply ![512, 512]]
  have e : (fun a' : Fin 2 => (ix3 (0 : Fin 1) a c) a'.succ) = ix2 a c := funext fun a' => by
    match a' with
    | ⟨0, _⟩ => rfl
    | ⟨1, _⟩ => rfl
  rw [e]
  simp only [mulf_apply, addf_apply, broadcast_apply]
  rw [score_apply, score_apply]
  rfl

end Cert.KernelIdeal.Hand

end
-- ==== Proof.AttnConsts.lean ====
/-
  The float constants the two programs spell, as the extended reals their bit patterns denote: 1.0 and 256.0 (the
  reference's sigmoid numerator and the head dimension under its square root) and 0.0625 (the kernel's score scale).
  The square root of 256 is 16, so dividing by it is multiplying by 1/16 = 0.0625.
-/
import Idealize.ShloMosaic.PureOps.Ideal
import Idealize.ShloMosaic.PureOps.Ideal.Laws

noncomputable section

namespace Cert.AttnConsts

open Idealize.ShloMosaic

theorem ofBits_one : Ideal.ofBits .f32 0x3F800000#32 = 1 := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

/-- The square root of 256 on the extended reals is 16. -/
theorem sqrt_256 : Ideal.sqrt ((256 : ℝ) : EReal) = ((16 : ℝ) : EReal) := by
  rw [Ideal.sqrt_coe, if_neg (by norm_num)]
  congr 1
  rw [show (256 : ℝ) = 16 ^ 2 by norm_num]
  exact Real.sqrt_sq (by norm_num)

end Cert.AttnConsts

end
-- ==== Proof.AttnSpec.lean ====
/-
  The specification both programs meet, on the extended reals, and the two laws that join their spellings.

  With q = relu(X·Wq + bq) and k = relu(X·Wk + bk) (per batch, 2048 rows of 256 features), the score of rows n, m is
  s(n, m) = sigmoid((Σ_d q(n, d)·k(m, d)) · 1/16), and the result at (batch, n, m) is 0 on the diagonal n = m and
  ½·(s(n, m) + s(m, n)) off it.

  The kernel multiplies the contraction by the constant 0.0625 and applies the sigmoid as one operation; the
  reference divides by the square root of 256 and spells the sigmoid 1 / (1 + exp(−x)). The square root of 256 is
  16 and dividing an extended real by 16 is multiplying it by 1/16, so the two agree for every extended real — no
  finiteness is used. The kernel zeroes the diagonal by a select on "row number = column number"; the reference
  multiplies by 1 − [row = column], and w·0 = 0, w·1 = w hold for every extended real.
-/
import Idealize.ShloMosaic.PureOps.Ideal
import Idealize.ShloMosaic.PureOps.Ideal.Laws
import Idealize.ShloMosaic.Lib.ValueIdx
import Idealize.ShloMosaic.Lib.Affine
import proofs.«160417_j32298154066180_2_alg».proof.Proof.AttnConsts

noncomputable section

namespace Cert.AttnSpec

open Idealize.ShloMosaic Idealize.ShloMosaic.ValueIdx

abbrev SX : Shape := ⟨3, ![8, 2048, 256]⟩
abbrev SW : Shape := ⟨2, ![256, 256]⟩
abbrev SB : Shape := ⟨1, ![256]⟩
abbrev SO : Shape := ⟨3, ![8, 2048, 2048]⟩

/-- One projection, relu(X·W + β), at (batch, row, feature). -/
def proj (X : SX.Idx → EReal) (W : SW.Idx → EReal) (β : SB.Idx → EReal) (b : Fin 8) (n : Fin 2048) (e : Fin 256) : EReal :=
  max ((∑ d : Fin 256, X (ix3 b n d) * W (ix2 d e)) + β (ix1 e)) (Ideal.ofBits .f32 0x00000000#32)

/-- The sigmoid of the scaled score of row n of the first family against row m of the second. -/
def sgm (q k : Fin 8 → Fin 2048 → Fin 256 → EReal) (b : Fin 8) (n m : Fin 2048) : EReal :=
  Ideal.logistic ((∑ d : Fin 256, q b n d * k b m d) * Ideal.ofBits .f32 0x3D800000#32)

/-- The symmetrized weights with the diagonal zeroed. -/
def G (X : SX.Idx → EReal) (Wq : SW.Idx → EReal) (βq : SB.Idx → EReal) (Wk : SW.Idx → EReal) (βk : SB.Idx → EReal) : SO.Idx → EReal := fun j =>
  if (j 1).val = (j 2).val then Ideal.ofBits .f32 0x00000000#32
  else Ideal.ofBits .f32 0x3F000000#32 *
    (sgm (proj X Wq βq) (proj X Wk βk) (j 0) (j 1) (j 2) + sgm (proj X Wq βq) (proj X Wk βk) (j 0) (j 2) (j 1))

/-! ## The scaled sigmoid, two spellings -/

/-- 1 / (1 + exp(−(x / sqrt 256))) is sigmoid(x · 0.0625), for every extended real x. -/
theorem sigmoid_scaled (x : EReal) :
    Ideal.div (Ideal.ofBits .f32 0x3F800000#32)
        (Ideal.ofBits .f32 0x3F800000#32 + Ideal.exp (-(Ideal.div x (Ideal.sqrt (Ideal.ofBits .f32 0x43800000#32)))))
      = Ideal.logistic (x * Ideal.ofBits .f32 0x3D800000#32) := by
  rw [AttnConsts.ofBits_one, AttnConsts.ofBits_256, AttnConsts.sqrt_256, Ideal.div_coe (by norm_num : (16 : ℝ) ≠ 0),
    AttnConsts.ofBits_sixteenth]
  rfl

/-! ## Row number = column number, as 32-bit words -/

theorem word_eq_iff {a b : Nat} (ha : a < 2048) (hb : b < 2048) : BitVec.ofNat 32 a = BitVec.ofNat 32 b ↔ a = b := by
  constructor
  · intro h
    have h' := congrArg BitVec.toNat h
    simp only [BitVec.toNat_ofNat] at h'
    rwa [Nat.mod_eq_of_lt (by omega), Nat.mod_eq_of_lt (by omega)] at h'
  · rintro rfl; rfl

/-- The kernel's diagonal select. -/
theorem select_diag {a b : Nat} (ha : a < 2048) (hb : b < 2048) (z w : EReal) :
    Scalar.select (IntOp.cmpi .eq (BitVec.ofNat 32 a) (BitVec.ofNat 32 b)) z w = if a = b then z else w := by
  unfold Scalar.select
  by_cases h : a = b
  · subst h
    rw [if_pos rfl]
    exact if_pos (IntOp.cmpi_eq.mpr rfl)
  · rw [if_neg h]
    exact if_neg (fun hh => h ((word_eq_iff ha hb).mp (IntOp.cmpi_eq.mp hh)))

/-- The reference's diagonal mask: a product with 1 − [row = column]. -/
theorem mask_diag {a b : Nat} (ha : a < 2048) (hb : b < 2048) (w : EReal) :
    w * (Ideal.ofBits .f32 0x3F800000#32
        - FloatOps.uitofp (F := Ideal) .f32 (IntOp.cmpi .eq (IntOp.addi (BitVec.ofNat 32 a) 0#32) (BitVec.ofNat 32 b)))
      = if a = b then 0 else w := by
  rw [AttnConsts.ofBits_one, show IntOp.addi (BitVec.ofNat 32 a) 0#32 = BitVec.ofNat 32 a from BitVec.add_zero _]
  by_cases h : a = b
  · rw [if_pos h, IntOp.cmpi_eq.mpr (by rw [h])]
    show w * ((1 : EReal) - (((1 : ℕ) : ℝ) : EReal)) = 0
    rw [Nat.cast_one, EReal.coe_one]
    rw [show ((1 : EReal) - 1) = 0 from by rw [← EReal.coe_one, ← EReal.coe_sub, sub_self, EReal.coe_zero], mul_zero]
  · have hne : IntOp.cmpi .eq (BitVec.ofNat 32 a) (BitVec.ofNat 32 b) = 0#1 := by
      rcases (by decide : ∀ c : BitVec 1, c = 0#1 ∨ c = 1#1) (IntOp.cmpi .eq (BitVec.ofNat 32 a) (BitVec.ofNat 32 b)) with h0 | h1
      · exact h0
      · exact absurd ((word_eq_iff ha hb).mp (IntOp.cmpi_eq.mp h1)) h
    rw [if_neg h, hne]
    show w * ((1 : EReal) - (((0 : ℕ) : ℝ) : EReal)) = w
    rw [Nat.cast_zero, EReal.coe_zero, sub_zero, mul_one]

end Cert.AttnSpec

end
-- ==== Proof.KI.Value.lean ====
/-
  The result array after the run is the specification of the argument arrays.

  Point t = 16 b + 4 i + j writes back the 512 × 512 tile (b, i, j) of the result. Its entry (a, c) is row
  n = 512 i + a against column m = 512 j + c. The rows the body reads out of the scratch buffers at offset 512 i
  (and 512 j) are rows n (and m) of the batch's two projections, which are the specification's. On a diagonal tile
  n = m exactly when a = c, and the transposed summand of the tile is the score of (m, n); on an off-diagonal tile
  n ≠ m, and the second sigmoid contracts the same pairs of entries in the other order, so it is the score of
  (m, n) by commutativity of the product under the sum. The 128 tiles cover the array.
-/
import proofs.«160417_j32298154066180_2_alg».proof.Proof.KI.Scratch
import proofs.«160417_j32298154066180_2_alg».proof.Proof.KI.Payload
import proofs.«160417_j32298154066180_2_alg».proof.Proof.AttnSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.AttnSpec

variable (m : (ℓ : Loc nD τ sig) → Buf (Elt Ideal) ℓ) (ρ : Dev nD → PrngReg)

/-- The argument arrays of core c, as functions on indices. -/
abbrev aX (c : Dev nD) : S8x2048x256.Idx → EReal := m ((c : Thread nD τ).loc main_arg0)
abbrev aWq (c : Dev nD) : S256x256.Idx → EReal := m ((c : Thread nD τ).loc main_arg1)
abbrev aBq (c : Dev nD) : S256.Idx → EReal := m ((c : Thread nD τ).loc main_arg2)
abbrev aWk (c : Dev nD) : S256x256.Idx → EReal := m ((c : Thread nD τ).loc main_arg3)
abbrev aBk (c : Dev nD) : S256.Idx → EReal := m ((c : Thread nD τ).loc main_arg4)

/-- The specification at core c's argument arrays. -/
def GG (c : Dev nD) : S8x2048x2048.Idx → EReal := G (aX m c) (aWq m c) (aBq m c) (aWk m c) (aBk m c)

/-! ## Grid coordinates and the output window's block index, decided over the grid -/

theorem coords_facts : ∀ t : Fin cfg0.N, (grid0.coords t 1).val = (t.val / 4) % 4 ∧ (grid0.coords t 2).val = t.val % 4 :=
  (by decide +kernel : ∀ t : Fin grid0.N, (grid0.coords t 1).val = (t.val / 4) % 4 ∧ (grid0.coords t 2).val = t.val % 4)

theorem index5 : ∀ t : Fin cfg0.N, win0_5.index t 0 = t.val / 16 ∧ win0_5.index t 1 = (t.val / 4) % 4 ∧ win0_5.index t 2 = t.val % 4 :=
  (by decide +kernel : ∀ t : Fin grid0.N, win0_5.index t 0 = t.val / 16 ∧ win0_5.index t 1 = (t.val / 4) % 4 ∧ win0_5.index t 2 = t.val % 4)

/-- Row a of the row tile, and row c of the column tile, as rows of the batch. -/
def rowI (t : Fin cfg0.N) (a : Fin 512) : Fin 2048 := ⟨512 * ((t.val / 4) % 4) + a.val, by have := a.isLt; omega⟩
def rowJ (t : Fin cfg0.N) (a : Fin 512) : Fin 2048 := ⟨512 * (t.val % 4) + a.val, by have := a.isLt; omega⟩

/-! ## The scratch rows are the specification's projections -/

theorem QA_apply (c : Dev nD) (b : Fin 8) (n : Fin 2048) (e : Fin 256) :
    QA m c b (ix2 n e) = proj (aX m c) (aWq m c) (aBq m c) b n e :=
  (pay2_apply _ _ _ n e).trans rfl
theorem KA_apply (c : Dev nD) (b : Fin 8) (n : Fin 2048) (e : Fin 256) :
    KA m c b (ix2 n e) = proj (aX m c) (aWk m c) (aBk m c) b n e :=
  (pay3_apply _ _ _ n e).trans rfl

theorem off1_row (t : Fin cfg0.N) (a : Fin 512) (d : Fin 256) :
    (Rect.unit (s := S2048x256) (k0_off1 (grid0.coords t)) S512x256.size (k0_off1_inb (grid0.coords t))).idx (ix2 a d) = ix2 (rowI t a) d := by
  funext ax
  apply Fin.ext
  match ax with
  | ⟨0, _⟩ =>
    show k0_off1 (grid0.coords t) 0 + 1 * a.val = 512 * ((t.val / 4) % 4) + a.val
    rw [k0_off1_eq, ← (coords_facts t).1]
    show 512 * (grid0.coords t 1).val + 1 * a.val = _
    omega
  | ⟨1, _⟩ =>
    show k0_off1 (grid0.coords t) 1 + 1 * d.val = d.val
    rw [k0_off1_eq]
    show 0 + 1 * d.val = d.val
    omega

theorem off2_row (t : Fin cfg0.N) (hD : ¬(t.val / 4) % 4 = t.val % 4) (a : Fin 512) (d : Fin 256) :
    (Rect.unit (s := S2048x256) (k0_off2 (grid0.coords t)) S512x256.size (k0_off2_inb (grid0.coords t) ((hcondO t).mpr hD))).idx (ix2 a d) = ix2 (rowJ t a) d := by
  funext ax
  apply Fin.ext
  match ax with
  | ⟨0, _⟩ =>
    show k0_off2 (grid0.coords t) 0 + 1 * a.val = 512 * (t.val % 4) + a.val
    rw [k0_off2_eq, ← (coords_facts t).2]
    show 512 * (grid0.coords t 2).val + 1 * a.val = _
    omega
  | ⟨1, _⟩ =>
    show k0_off2 (grid0.coords t) 1 + 1 * d.val = d.val
    rw [k0_off2_eq]
    show 0 + 1 * d.val = d.val
    omega

/-- The score of two slices of the scratch buffers is the specification's score of the rows they hold. -/
theorem sg_rows (c : Dev nD) (b : Fin 8) (u v : FVec Ideal S512x256 .bf16) (ru rv : Fin 512 → Fin 2048)
    (hu : ∀ a d, u (ix2 a d) = proj (aX m c) (aWq m c) (aBq m c) b (ru a) d)
    (hv : ∀ a d, v (ix2 a d) = proj (aX m c) (aWk m c) (aBk m c) b (rv a) d) (a cc : Fin 512) :
    sg u v a cc = sgm (proj (aX m c) (aWq m c) (aBq m c)) (proj (aX m c) (aWk m c) (aBk m c)) b (ru a) (rv cc) := by
  unfold sg sgm
  congr 2
  exact Finset.sum_congr rfl fun d _ => by rw [hu, hv]

/-- The same with the two families exchanged: the products under the sum commute. -/
theorem sg_rows_swap (c : Dev nD) (b : Fin 8) (u v : FVec Ideal S512x256 .bf16) (ru rv : Fin 512 → Fin 2048)
    (hu : ∀ a d, u (ix2 a d) = proj (aX m c) (aWk m c) (aBk m c) b (ru a) d)
    (hv : ∀ a d, v (ix2 a d) = proj (aX m c) (aWq m c) (aBq m c) b (rv a) d) (a cc : Fin 512) :
    sg u v a cc = sgm (proj (aX m c) (aWq m c) (aBq m c)) (proj (aX m c) (aWk m c) (aBk m c)) b (rv cc) (ru a) := by
  unfold sg sgm
  congr 2
  exact Finset.sum_congr rfl fun d _ => by rw [hu, hv, mul_comm]

theorem ldQ1 (c : Dev nD) (t : Fin cfg0.N) (a : Fin 512) (d : Fin 256) :
    View.ld (QA m c (bOf t)) (Rect.unit (s := S2048x256) (k0_off1 (grid0.coords t)) S512x256.size (k0_off1_inb (grid0.coords t))) (ix2 a d) = proj (aX m c) (aWq m c) (aBq m c) (bOf t) (rowI t a) d := by
  show QA m c (bOf t) ((Rect.unit (s := S2048x256) (k0_off1 (grid0.coords t)) S512x256.size (k0_off1_inb (grid0.coords t))).idx (ix2 a d)) = _
  rw [off1_row t a d, QA_apply]
theorem ldK1 (c : Dev nD) (t : Fin cfg0.N) (a : Fin 512) (d : Fin 256) :
    View.ld (KA m c (bOf t)) (Rect.unit (s := S2048x256) (k0_off1 (grid0.coords t)) S512x256.size (k0_off1_inb (grid0.coords t))) (ix2 a d) = proj (aX m c) (aWk m c) (aBk m c) (bOf t) (rowI t a) d := by
  show KA m c (bOf t) ((Rect.unit (s := S2048x256) (k0_off1 (grid0.coords t)) S512x256.size (k0_off1_inb (grid0.coords t))).idx (ix2 a d)) = _
  rw [off1_row t a d, KA_apply]
theorem ldQ2 (c : Dev nD) (t : Fin cfg0.N) (hD : ¬(t.val / 4) % 4 = t.val % 4) (a : Fin 512) (d : Fin 256) :
    View.ld (QA m c (bOf t)) (Rect.unit (s := S2048x256) (k0_off2 (grid0.coords t)) S512x256.size (k0_off2_inb (grid0.coords t) ((hcondO t).mpr hD))) (ix2 a d) = proj (aX m c) (aWq m c) (aBq m c) (bOf t) (rowJ t a) d := by
  show QA m c (bOf t) ((Rect.unit (s := S2048x256) (k0_off2 (grid0.coords t)) S512x256.size (k0_off2_inb (grid0.coords t) ((hcondO t).mpr hD))).idx (ix2 a d)) = _
  rw [off2_row t hD a d, QA_apply]
theorem ldK2 (c : Dev nD) (t : Fin cfg0.N) (hD : ¬(t.val / 4) % 4 = t.val % 4) (a : Fin 512) (d : Fin 256) :
    View.ld (KA m c (bOf t)) (Rect.unit (s := S2048x256) (k0_off2 (grid0.coords t)) S512x256.size (k0_off2_inb (grid0.coords t) ((hcondO t).mpr hD))) (ix2 a d) = proj (aX m c) (aWk m c) (aBk m c) (bOf t) (rowJ t a) d := by
  show KA m c (bOf t) ((Rect.unit (s := S2048x256) (k0_off2 (grid0.coords t)) S512x256.size (k0_off2_inb (grid0.coords t) ((hcondO t).mpr hD))).idx (ix2 a d)) = _
  rw [off2_row t hD a d, KA_apply]

/-! ## What each point stores is its tile of the specification -/

/-- The specification at an index given by its coordinates. -/
theorem GG_apply (c : Dev nD) (b : Fin 8) (n k : Fin 2048) :
    GG m c (ix3 b n k) = if n.val = k.val then Ideal.ofBits .f32 0x00000000#32
      else Ideal.ofBits .f32 0x3F000000#32 *
        (sgm (proj (aX m c) (aWq m c) (aBq m c)) (proj (aX m c) (aWk m c) (aBk m c)) b n k
          + sgm (proj (aX m c) (aWq m c) (aBq m c)) (proj (aX m c) (aWk m c) (aBk m c)) b k n) := rfl

/-- Entry (0, a, c) of point t's tile. -/
theorem tile_apply (c : Dev nD) (t : Fin cfg0.N) (a cc : Fin 512) :
    (outsAt m c t.val t.isLt).1 (ix3 0 a cc) = GG m c (ix3 (bOf t) (rowI t a) (rowJ t cc)) := by
  rw [GG_apply]
  by_cases hD : (t.val / 4) % 4 = t.val % 4
  · rw [out_diag m c t hD, pay4_apply, select_diag (by have := a.isLt; omega) (by have := cc.isLt; omega)]
    have hrow : rowJ t cc = rowI t cc := Fin.ext (by show 512 * (t.val % 4) + cc.val = 512 * ((t.val / 4) % 4) + cc.val; rw [hD])
    rw [hrow]
    have hiff : ((rowI t a).val = (rowI t cc).val) ↔ a.val = cc.val := by
      show 512 * ((t.val / 4) % 4) + a.val = 512 * ((t.val / 4) % 4) + cc.val ↔ _
      omega
    by_cases hac : a.val = cc.val
    · rw [if_pos hac, if_pos (hiff.mpr hac)]
    · rw [if_neg hac, if_neg (fun h => hac (hiff.mp h)),
        sg_rows m c (bOf t) _ _ (rowI t) (rowI t) (ldQ1 m c t) (ldK1 m c t) a cc,
        sg_rows m c (bOf t) _ _ (rowI t) (rowI t) (ldQ1 m c t) (ldK1 m c t) cc a]
  · rw [out_off m c t hD, pay5_apply]
    have hne : ¬(rowI t a).val = (rowJ t cc).val := by
      show ¬512 * ((t.val / 4) % 4) + a.val = 512 * (t.val % 4) + cc.val
      have := a.isLt; have := cc.isLt; omega
    rw [if_neg hne,
      sg_rows m c (bOf t) _ _ (rowI t) (rowJ t) (ldQ1 m c t) (ldK2 m c t hD) a cc,
      sg_rows_swap m c (bOf t) _ _ (rowI t) (rowJ t) (ldK1 m c t) (ldQ2 m c t hD) a cc]

/-- What point t writes back is block t of the specification. -/
theorem flushed_eq (c : Dev nD) (t : Fin cfg0.N) :
    (dats m 0 c).flushed 5 t = ((cfg0.win 5).blk t).view.read (Elt Ideal) (GG m c) := by
  show (cfg0.win 5).cut (grid0.coords t) ((dats m 0 c).after 5 t) = _
  rw [after5]
  funext (y : S1x512x512.Idx)
  have hi := index5 t
  have hy0 : (y 0).val = 0 := by
    have h := (y 0).isLt
    change (y 0).val < 1 at h
    omega
  have hy : y = ix3 0 (y 1) (y 2) := by
    funext ax
    match ax with
    | ⟨0, _⟩ => exact Fin.ext hy0
    | ⟨1, _⟩ => rfl
    | ⟨2, _⟩ => rfl
  rw [View.read_apply]
  have hemb : ((cfg0.win 5).blk t).view.emb y = ix3 (bOf t) (rowI t (y 1)) (rowJ t (y 2)) := by
    funext ax
    apply Fin.ext
    match ax with
    | ⟨0, _⟩ => show win0_5.index t 0 * 1 + 1 * (y 0).val = t.val / 16; rw [hi.1, hy0]; omega
    | ⟨1, _⟩ => show win0_5.index t 1 * 512 + 1 * (y 1).val = 512 * ((t.val / 4) % 4) + (y 1).val; rw [hi.2.1]; omega
    | ⟨2, _⟩ => show win0_5.index t 2 * 512 + 1 * (y 2).val = 512 * (t.val % 4) + (y 2).val; rw [hi.2.2]; omega
  rw [hemb]
  show (outsAt m c t.val t.isLt).1 y = _
  rw [hy]
  exact tile_apply m c t (y 1) (y 2)

/-- An index of the result is in point t's block iff each coordinate is in the block's range. -/
theorem mem_blk (t : Fin cfg0.N) (i : S8x2048x2048.Idx) :
    i ∈ ((cfg0.win 5).blk t).view.set ↔ ∀ a : Fin 3, win0_5.index t a * S1x512x512.size a ≤ (i a).val ∧ (i a).val < win0_5.index t a * S1x512x512.size a + S1x512x512.size a := by
  show i ∈ ((View.whole main_v0).slice (win0_5.rect t)).set ↔ _
  rw [View.set_slice_whole, Rect.mem_set_unit]
  exact Iff.rfl

/-- Every index of the result lies in some point's block. -/
theorem cover (i : S8x2048x2048.Idx) : ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 2048 := (i 2).isLt
  have hN : cfg0.N = 128 := N_0
  refine ⟨⟨16 * (i 0).val + 4 * ((i 1).val / 512) + (i 2).val / 512, by omega⟩, flush0_5 _, ?_⟩
  rw [mem_blk]
  obtain ⟨e0, e1, e2⟩ := index5 ⟨16 * (i 0).val + 4 * ((i 1).val / 512) + (i 2).val / 512, by omega⟩
  intro a
  match a with
  | ⟨0, _⟩ =>
    show win0_5.index _ 0 * 1 ≤ (i 0).val ∧ (i 0).val < win0_5.index _ 0 * 1 + 1
    rw [e0]; dsimp only; omega
  | ⟨1, _⟩ =>
    show win0_5.index _ 1 * 512 ≤ (i 1).val ∧ (i 1).val < win0_5.index _ 1 * 512 + 512
    rw [e1]; dsimp only; omega
  | ⟨2, _⟩ =>
    show win0_5.index _ 2 * 512 ≤ (i 2).val ∧ (i 2).val < win0_5.index _ 2 * 512 + 512
    rw [e2]; dsimp only; omega

/-- The result array after the run. -/
theorem final (c : Dev nD) : (dats m 0 c).arrAt 5 cfg0.N = GG m c :=
  (dats m 0 c).arrAt_eq_of_cover 5 (GG m c) (fun t _ => flushed_eq m c t) cover

/-- The run: the result at the specification of the argument arrays, the arguments unchanged. -/
theorem run : θ_run defs (onTc (τ := τ) (main (F := Ideal))) ⟨m, fun _ => 0, ρ⟩ fun r => ∀ c : Dev nD,
      r.2.mem ((c : Thread nD τ).loc main_v0) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Hand

end
-- ==== Proof.RefValue.lean ====
/-
  The reference's result is the specification.

  Reading the reference one operation at a time at an index (b, n, m): its two relu'd projections are the
  specification's; its scores are the batched contraction of row n of the first with row m of the second; dividing by
  the square root of 256 and applying 1 / (1 + exp(−x)) is the sigmoid of the score times 0.0625; the transposed
  summand swaps n and m; the final product with 1 − [n = m] zeroes the diagonal and leaves the rest.
-/
import proofs.«160417_j32298154066180_2_alg».proof.Proof.Gen.ReferenceIdeal.Read
import proofs.«160417_j32298154066180_2_alg».proof.Proof.AttnSpec

set_option maxRecDepth 16384

noncomputable section

namespace Cert.ReferenceIdeal.RefValue

open Cert.ReferenceIdeal Cert.ReferenceIdeal.Gen Cert.ReferenceIdeal.Read Cert.AttnSpec
open Idealize.ShloMosaic Idealize.ShloMosaic.ValueIdx

variable (x0 : FVec Ideal S8x2048x256 .f32) (x1 : FVec Ideal S256x256 .f32) (x2 : FVec Ideal S256 .f32)
  (x3 : FVec Ideal S256x256 .f32) (x4 : FVec Ideal S256 .f32)

/-! ## The index maps of the reference's layout operations, at coordinates -/

theorem l0 (b : Fin 8) (n : Fin 2048) (e k : Fin 256) : lidx_main_v0 (ix3 b n e) k = ix3 b n k :=
  funext fun a => by match a with | ⟨0, _⟩ => rfl | ⟨1, _⟩ => rfl | ⟨2, _⟩ => rfl
theorem r0 (b : Fin 8) (n : Fin 2048) (e k : Fin 256) : ridx_main_v0 (ix3 b n e) k = ix2 k e :=
  funext fun a => by match a with | ⟨0, _⟩ => rfl | ⟨1, _⟩ => rfl
theorem l5 (b : Fin 8) (n : Fin 2048) (e k : Fin 256) : lidx_main_v5 (ix3 b n e) k = ix3 b n k :=
  funext fun a => by match a with | ⟨0, _⟩ => rfl | ⟨1, _⟩ => rfl | ⟨2, _⟩ => rfl
theorem r5 (b : Fin 8) (n : Fin 2048) (e k : Fin 256) : ridx_main_v5 (ix3 b n e) k = ix2 k e :=
  funext fun a => by match a with | ⟨0, _⟩ => rfl | ⟨1, _⟩ => rfl
theorem i12 (b : Fin 8) (n : Fin 2048) (e : Fin 256) : idx_main_v1 (idx_main_v2 (ix3 b n e)) = ix1 e :=
  funext fun a => by match a with | ⟨0, _⟩ => rfl
theorem i67 (b : Fin 8) (n : Fin 2048) (e : Fin 256) : idx_main_v6 (idx_main_v7 (ix3 b n e)) = ix1 e :=
  funext fun a => by match a with | ⟨0, _⟩ => rfl
theorem l10 (b : Fin 8) (n m : Fin 2048) (k : Fin 256) : lidx_main_v10 (ix3 b n m) k = ix3 b n k :=
  funext fun a => by match a with | ⟨0, _⟩ => rfl | ⟨1, _⟩ => rfl | ⟨2, _⟩ => rfl
theorem r10 (b : Fin 8) (n m : Fin 2048) (k : Fin 256) : ridx_main_v10 (ix3 b n m) k = ix3 b m k :=
  funext fun a => by match a with | ⟨0, _⟩ => rfl | ⟨1, _⟩ => rfl | ⟨2, _⟩ => rfl
theorem i20 (b : Fin 8) (n m : Fin 2048) : idx_main_v20 (ix3 b n m) = ix3 b m n :=
  funext fun a => by match a with | ⟨0, _⟩ => rfl | ⟨1, _⟩ => rfl | ⟨2, _⟩ => rfl
theorem i33 (b : Fin 8) (n m : Fin 2048) : idx_main_v32 (idx_main_v33 (ix3 b n m)) = ix2 n m :=
  funext fun a => by match a with | ⟨0, _⟩ => rfl | ⟨1, _⟩ => rfl

/-! ## The stages -/

/-- The first relu'd projection. -/
theorem q_apply (b : Fin 8) (n : Fin 2048) (e : Fin 256) :
    val_main_v4 (F := Ideal) x0 x1 x2 (ix3 b n e) = proj x0 x1 x2 b n e := by
  rw [val_main_v4_apply, val_main_v3_apply, val_main_v0_apply, val_main_v2_apply, val_main_v1_apply,
    val_main_call0_v0_apply, val_main_call0_cst_apply, i12]
  simp only [l0, r0]
  rfl

/-- The second relu'd projection. -/
theorem k_apply (b : Fin 8) (n : Fin 2048) (e : Fin 256) :
    val_main_v9 (F := Ideal) x0 x3 x4 (ix3 b n e) = proj x0 x3 x4 b n e := by
  rw [val_main_v9_apply, val_main_v8_apply, val_main_v5_apply, val_main_v7_apply, val_main_v6_apply,
    val_main_call1_v0_apply, val_main_call1_cst_apply, i67]
  simp only [l5, r5]
  rfl

/-- The sigmoid of the scaled score. -/
theorem s_apply (b : Fin 8) (n m : Fin 2048) :
    val_main_v19 (F := Ideal) x0 x1 x2 x3 x4 (ix3 b n m) = sgm (proj x0 x1 x2) (proj x0 x3 x4) b n m := by
  rw [val_main_v19_apply, val_main_v18_apply, val_main_cst_1_apply, val_main_v17_apply, val_main_v16_apply,
    val_main_cst_0_apply, val_main_v15_apply, val_main_v14_apply, val_main_v13_apply, val_main_v12_apply,
    val_main_v11_apply, val_main_cst_apply, val_main_v10_apply]
  simp only [l10, r10, q_apply, k_apply]
  exact sigmoid_scaled _

/-- The reference's result is the specification. -/
theorem ref_is_G : val_main_v34 (F := Ideal) x0 x1 x2 x3 x4 = G x0 x1 x2 x3 x4 := by
  funext j
  obtain ⟨b, n, m, rfl⟩ : ∃ (b : Fin 8) (n m : Fin 2048), j = ix3 b n m := ⟨j 0, j 1, j 2, eq_ix3 j⟩
  rw [val_main_v34_apply, val_main_v23_apply, val_main_v22_apply, val_main_cst_2_apply, val_main_v21_apply,
    val_main_v20_apply, i20, s_apply, s_apply, val_main_v33_apply, val_main_v32_apply, i33, val_main_v31_apply,
    val_main_v30_apply, val_main_cst_3_apply, val_main_v29_apply, val_main_v28_apply, val_main_v27_apply,
    val_main_v24_apply, val_main_v25_apply, val_main_v26_apply, val_main_c_apply]
  unfold G
  show (Ideal.ofBits .f32 0x3F000000#32 * (sgm (proj x0 x1 x2) (proj x0 x3 x4) b n m + sgm (proj x0 x1 x2) (proj x0 x3 x4) b m n))
      * (Ideal.ofBits .f32 0x3F800000#32 - FloatOps.uitofp (F := Ideal) .f32 (IntOp.cmpi .eq (IntOp.addi (BitVec.ofNat 32 n.val) 0#32) (BitVec.ofNat 32 m.val)))
    = if n.val = m.val then Ideal.ofBits .f32 0x00000000#32 else _
  rw [mask_diag n.isLt m.isLt, Ideal.ofBits_zero_f32]

end Cert.ReferenceIdeal.RefValue

end
-- ==== Proof.lean ====
/-
  A fused attention-weights kernel against its jnp reference, on the extended reals.

  Both programs compute, per batch, q = relu(X·Wq + bq) and k = relu(X·Wk + bk), the scores
  s(n, m) = sigmoid((Σ_d q(n, d)·k(m, d)) / 16), and return ½·(s(n, m) + s(m, n)) with the diagonal n = m zeroed.

  The kernel runs on a grid (batch, row tile, column tile) of 8 × 4 × 4 points. At a batch's first point it computes
  both projections into two scratch buffers, which every later point of the batch only reads; each point stores one
  512 × 512 tile of the result — on a diagonal tile one contraction and its transpose with the diagonal selected to
  zero, on an off-diagonal tile two contractions. The frames of the kernel (at the word level and idealized) run the
  body once per case of its three conditionals, carrying the scratch buffers' contents from point to point. The value:
  the scratch buffers hold the specification's projections of the current batch, so each tile is the specification's,
  and the tiles cover the result. The reference is read one operation at a time to the same specification. The two
  spellings of the scaled sigmoid agree because the square root of 256 is 16 and division by 16 is multiplication by
  0.0625 on every extended real; no finiteness of the inputs is used.
-/
import proofs.«160417_j32298154066180_2_alg».proof.Defs
import proofs.«160417_j32298154066180_2_alg».proof.Proof.Gen.Kernel
import proofs.«160417_j32298154066180_2_alg».proof.Proof.Gen.Kernel.Skeleton
import proofs.«160417_j32298154066180_2_alg».proof.Proof.Gen.Kernel.Launch
import proofs.«160417_j32298154066180_2_alg».proof.Proof.Gen.Kernel.Points
import proofs.«160417_j32298154066180_2_alg».proof.Proof.Gen.Kernel.Frame
import proofs.«160417_j32298154066180_2_alg».proof.Proof.Gen.KernelIdeal
import proofs.«160417_j32298154066180_2_alg».proof.Proof.Gen.KernelIdeal.Skeleton
import proofs.«160417_j32298154066180_2_alg».proof.Proof.Gen.KernelIdeal.Launch
import proofs.«160417_j32298154066180_2_alg».proof.Proof.Gen.KernelIdeal.Points
import proofs.«160417_j32298154066180_2_alg».proof.Proof.Gen.KernelIdeal.Frame
import proofs.«160417_j32298154066180_2_alg».proof.Proof.Gen.ReferenceIdeal
import proofs.«160417_j32298154066180_2_alg».proof.Proof.Gen.Pre_finite_inputs
import proofs.«160417_j32298154066180_2_alg».proof.Proof.Gen.ReferenceIdeal.Run
import proofs.«160417_j32298154066180_2_alg».proof.Proof.Gen.ReferenceIdeal.Read
import proofs.«160417_j32298154066180_2_alg».proof.Proof.KB.Frame
import proofs.«160417_j32298154066180_2_alg».proof.Proof.KI.Value
import proofs.«160417_j32298154066180_2_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end at the specification of those arguments. -/
theorem algebraic : Cert.algebraic_KernelIdeal_ReferenceIdeal := by
  intro m ρ m' ρ' _ hagree
  refine ⟨fun c => Cert.KernelIdeal.Hand.GG m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v34_eq _ _ _ _ _).trans ?_
  refine (Cert.ReferenceIdeal.RefValue.ref_is_G _ _ _ _ _).trans ?_
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
